-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S100000x64 .f32) (main_arg1 : IVec S2x1280000 32) (main_arg2 : FVec F S128x64 .f32) (main_arg3 : FVec F S128 .f32) (main_arg4 : FVec F S128x64 .f32) (main_arg5 : FVec F S64x128 .f32) (main_arg6 : FVec F S64 .f32) (main_arg7 : FVec F S64x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S100000x1 : Shape := ⟨2, ![100000, 1]⟩
abbrev S1280000x64 : Shape := ⟨2, ![1280000, 64]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩

abbrev nBuf : Space → Nat
  | .hbm => 56
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .f32⟩
  | .hbm, ⟨13, _⟩ => ⟨S1280000x1, .f32⟩
  | .hbm, ⟨14, _⟩ => ⟨S_, .f32⟩
  | .hbm, ⟨15, _⟩ => ⟨S100000x1, .f32⟩
  | .hbm, ⟨16, _⟩ => ⟨S1280000x1, .i32⟩
  | .hbm, ⟨17, _⟩ => ⟨S100000x1, .f32⟩
  | .hbm, ⟨18, _⟩ => ⟨S100000x64, .bf16⟩
  | .hbm, ⟨19, _⟩ => ⟨S_, .i32⟩
  | .hbm, ⟨20, _⟩ => ⟨S1280000, .i32⟩
  | .hbm, ⟨21, _⟩ => ⟨S1280000, .i1⟩
  | .hbm, ⟨22, _⟩ => ⟨S_, .i32⟩
  | .hbm, ⟨23, _⟩ => ⟨S1280000, .i32⟩
  | .hbm, ⟨24, _⟩ => ⟨S1280000, .i32⟩
  | .hbm, ⟨25, _⟩ => ⟨S1280000, .i32⟩
  | .hbm, ⟨26, _⟩ => ⟨S1280000x1, .i32⟩
  | .hbm, ⟨27, _⟩ => ⟨S1280000x64, .bf16⟩
  | .hbm, ⟨28, _⟩ => ⟨S1280000x64, .f32⟩
  | .hbm, ⟨29, _⟩ => ⟨S_, .f32⟩
  | .hbm, ⟨30, _⟩ => ⟨S100000x64, .f32⟩
  | .hbm, ⟨31, _⟩ => ⟨S1280000x1, .i32⟩
  | .hbm, ⟨32, _⟩ => ⟨S100000x64, .f32⟩
  | .hbm, ⟨33, _⟩ => ⟨S64x128, .f32⟩
  | .hbm, ⟨34, _⟩ => ⟨S64x128, .f32⟩
  | .hbm, ⟨35, _⟩ => ⟨S128x64, .f32⟩
  | .hbm, ⟨36, _⟩ => ⟨S128x64, .f32⟩
  | .hbm, ⟨37, _⟩ => ⟨S1x128, .f32⟩
  | .hbm, ⟨38, _⟩ => ⟨S100000x128, .f32⟩
  | .hbm, ⟨39, _⟩ => ⟨S100000x64, .bf16⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000x64, .bf16⟩
  | .hbm, ⟨49, _⟩ => ⟨S1280000x64, .f32⟩
  | .hbm, ⟨50, _⟩ => ⟨S_, .f32⟩
  | .hbm, ⟨51, _⟩ => ⟨S100000x64, .f32⟩
  | .hbm, ⟨52, _⟩ => ⟨S1280000x1, .i32⟩
  | .hbm, ⟨53, _⟩ => ⟨S100000x64, .f32⟩
  | .hbm, ⟨54, _⟩ => ⟨S1x64, .f32⟩
  | .hbm, ⟨55, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S128x64, .f32⟩
  | .local _ .vmem, ⟨10, _⟩ => ⟨S5000x128, .f32⟩
  | .local _ .vmem, ⟨11, _⟩ => ⟨S5000x128, .f32⟩
  | .local _ .vmem, ⟨12, _⟩ => ⟨S5000x64, .bf16⟩
  | .local _ .vmem, ⟨13, _⟩ => ⟨S5000x64, .bf16⟩
  | .local _ .vmem, ⟨14, _⟩ => ⟨S5000x64, .f32⟩
  | .local _ .vmem, ⟨15, _⟩ => ⟨S5000x64, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000x1 : S_.BroadcastsInDim S1280000x1 (![] : Fin 0 → Fin S1280000x1.rank)
  bcast_S_S100000x1 : S_.BroadcastsInDim S100000x1 (![] : Fin 0 → Fin S100000x1.rank)
  bcast_S1280000_S1280000x1_0 : S1280000.BroadcastsInDim S1280000x1 (![0] : Fin 1 → Fin S1280000x1.rank)
  bitsLt_bf16_f32 : FTy.bits .bf16 < FTy.bits .f32
  bcast_S_S1280000 : S_.BroadcastsInDim S1280000 (![] : Fin 0 → Fin S1280000.rank)
  bcast_S_S100000x64 : S_.BroadcastsInDim S100000x64 (![] : Fin 0 → Fin S100000x64.rank)
  transposes_S128x64_S64x128_1_0 : S128x64.Transposes [1, 0] S64x128
  transposes_S64x128_S128x64_1_0 : S64x128.Transposes [1, 0] S128x64
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  packedbf16_S5000x64_S5000x64_0_0 : (Rect.unit (s := S5000x64) ![0, 0] S5000x64.size inb_S5000x64_S5000x64_0_0).PackedRows (EltTy.packing .bf16)
  shapeCasts_S64_S1x64 : S64.ShapeCasts S1x64
  shapeCasts_S5000x128_S5000x128 : S5000x128.ShapeCasts S5000x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x1_S1280000x1_S1280000x1_1_0_0_1_wf : ScatterDims.WF S100000x1 S1280000x1 S1280000x1 [1] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .bf16 = 32 ∨ (Rect.block (s := S100000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v19) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S100000x128 : Shape := ⟨2, ![100000, 128]⟩
abbrev S1x128 : Shape := ⟨2, ![1, 128]⟩
abbrev S1280000x128 : Shape := ⟨2, ![1280000, 128]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S1280000x1, .i32⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S_, .f32⟩
  | .hbm, ⟨26, _⟩ => ⟨S1280000x1, .f32⟩
  | .hbm, ⟨27, _⟩ => ⟨S_, .f32⟩
  | .hbm, ⟨28, _⟩ => ⟨S100000x1, .f32⟩
  | .hbm, ⟨29, _⟩ => ⟨S1280000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S64x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1280000, .i32⟩
  | .hbm, ⟨49, _⟩ => ⟨S1280000, .i1⟩
  | .hbm, ⟨50, _⟩ => ⟨S_, .i32⟩
  | .hbm, ⟨51, _⟩ => ⟨S1280000, .i32⟩
  | .hbm, ⟨52, _⟩ => ⟨S1280000, .i32⟩
  | .hbm, ⟨53, _⟩ => ⟨S1280000, .i32⟩
  | .hbm, ⟨54, _⟩ => ⟨S1280000x1, .i32⟩
  | .hbm, ⟨55, _⟩ => ⟨S1280000x128, .f32⟩
  | .hbm, ⟨56, _⟩ => ⟨S_, .f32⟩
  | .hbm, ⟨57, _⟩ => ⟨S100000x128, .f32⟩
  | .hbm, ⟨58, _⟩ => ⟨S1280000x1, .i32⟩
  | .hbm, ⟨59, _⟩ => ⟨S100000x128, .f32⟩
  | .hbm, ⟨60, _⟩ => ⟨S_, .f32⟩
  | .hbm, ⟨61, _⟩ => ⟨S1280000x1, .f32⟩
  | .hbm, ⟨62, _⟩ => ⟨S_, .f32⟩
  | .hbm, ⟨63, _⟩ => ⟨S100000x1, .f32⟩
  | .hbm, ⟨64, _⟩ => ⟨S1280000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S128x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S128x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S1280000x1 : S_.BroadcastsInDim S1280000x1 (![] : Fin 0 → Fin S1280000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000x1_S1280000x1_S1280000x1_1_0_0_1_wf : ScatterDims.WF S100000x1 S1280000x1 S1280000x1 [1] [0] [0] 1
  dot_S100000x64_S64x128_S100000x128_1_0_0_1_n_n_wf : DotDims.WF S100000x64 S64x128 S100000x128 [1] [0] [0] [1] [] []
  gather_S100000x128_S1280000x1_S1280000x128_1_0_n_n_0_1_1128_wf : GatherDims.WF S100000x128 S1280000x1 S1280000x128 [1] [0] [] [0] [] 1 ![1, 128]
  scatter_S100000x128_S1280000x1_S1280000x128_1_0_0_1_wf : ScatterDims.WF S100000x128 S1280000x1 S1280000x128 [1] [0] [0] 1
  dot_S100000x128_S128x64_S100000x64_1_0_0_1_n_n_wf : DotDims.WF S100000x128 S128x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1280000x1_S1280000x128_1_0_n_n_0_1_1128 : GatherDims S100000x128 S1280000x1 S1280000x128 where
  offsetDims := [1]
  collapsedSliceDims := [0]
  operandBatchingDims := []
  startIndicesBatchingDims := []
  startIndexMap := [0]
  indexVectorDim := 1
  sliceSizes := ![1, 128]
  wf := gather_S100000x128_S1280000x1_S1280000x128_1_0_n_n_0_1_1128_wf
def scatter_S100000x128_S1280000x1_S1280000x128_1_0_0_1 : ScatterDims S100000x128 S1280000x1 S1280000x128 where
  updateWindowDims := [1]
  insertedWindowDims := [0]
  scatterDimsToOperandDims := [0]
  indexVectorDim := 1
  wf := scatter_S100000x128_S1280000x1_S1280000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.FiniteInputs.lean ====
/-
  The precondition "every float input is finite", read back one element at a time, with floats read as
  extended reals.

  The predicate tests each float argument x by |x| < +∞ at every element, takes the conjunction of one
  argument's tests by a reduction by "and" over all axes starting from 1, and joins the seven results by
  "and". If the whole predicate is 1 then each of the seven conjunctions is 1, so each element test is 1.
  On the extended reals |x| is max x (-x), the pattern 0x7F800000 denotes ⊤, and max x (-x) < ⊤ excludes
  both x = ⊤ and x = ⊥ (since -⊥ = ⊤): what remains is a real number.
-/
import proofs.«127070_j7172595384376_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic Cert.Pre_finite_inputs

/-- The rank-0 shape has exactly one index. -/
instance : Subsingleton S_.Idx := ⟨fun a b => funext fun d => d.elim0⟩

/-- The f32 pattern 0x7F800000 (sign 0, exponent all ones, fraction 0) denotes +∞. -/
theorem inf_bits : Ideal.ofBits .f32 0x7F800000#32 = (⊤ : EReal) := by
  simp [Ideal.ofBits, Ideal.ieee]

/-- An extended real whose absolute value max x (-x) is below ⊤ is a real number:
    x = ⊤ gives max ⊤ ⊥ = ⊤, and x = ⊥ gives max ⊥ ⊤ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One element test: if |x i| < +∞ compares to 1 then x i is a real number. -/
theorem real_of_test {s : Shape} (hb : S_.BroadcastsInDim s (![] : Fin 0 → Fin s.rank))
    (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  unfold Ideal.cmp at h'
  apply real_of_abs_lt_top
  by_contra hn
  simp [hn] at h'

/-- A conjunction of two rank-0 truth values that is 1 has both conjuncts 1. -/
theorem andi_split (x y : IVec S_ 1) (j : S_.Idx) (h : andi x y j = 1#1) : x j = 1#1 ∧ y j = 1#1 :=
  IntOp.andi_eq_one.1 h

/-- The precondition decoded: every element of every float argument is a real number. -/
theorem finite_of_pre [Cert.Pre_finite_inputs.Facts]
    (a0 : FVec Ideal Cert.Pre_finite_inputs.S100000x64 .f32) (a1 : IVec Cert.Pre_finite_inputs.S2x1280000 32)
    (a2 : FVec Ideal Cert.Pre_finite_inputs.S128x64 .f32) (a3 : FVec Ideal Cert.Pre_finite_inputs.S128 .f32)
    (a4 : FVec Ideal Cert.Pre_finite_inputs.S128x64 .f32) (a5 : FVec Ideal Cert.Pre_finite_inputs.S64x128 .f32)
    (a6 : FVec Ideal Cert.Pre_finite_inputs.S64 .f32) (a7 : FVec Ideal Cert.Pre_finite_inputs.S64x128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) ∧
      (∀ i, ∃ r : ℝ, a4 i = (r : EReal)) ∧ (∀ i, ∃ r : ℝ, a5 i = (r : EReal)) ∧ (∀ i, ∃ r : ℝ, a6 i = (r : EReal)) ∧
      (∀ i, ∃ r : ℝ, a7 i = (r : EReal)) := by
  have e := congrFun h ValueIdx.ix0
  dsimp only [Cert.Pre_finite_inputs.fn, Cert.Pre_finite_inputs.fn_part1] at e
  -- the seven conjunctions, peeled from the outermost "and" inwards
  obtain ⟨e, h7⟩ := andi_split _ _ _ e
  obtain ⟨e, h6⟩ := andi_split _ _ _ e
  obtain ⟨e, h5⟩ := andi_split _ _ _ e
  obtain ⟨e, h4⟩ := andi_split _ _ _ e
  obtain ⟨e, h3⟩ := andi_split _ _ _ e
  obtain ⟨h0, h2⟩ := andi_split _ _ _ e
  exact ⟨fun i => real_of_test _ a0 i (Host.reduce_andi_all _ _ _ _ _ h0 i),
    fun i => real_of_test _ a2 i (Host.reduce_andi_all _ _ _ _ _ h2 i),
    fun i => real_of_test _ a3 i (Host.reduce_andi_all _ _ _ _ _ h3 i),
    fun i => real_of_test _ a4 i (Host.reduce_andi_all _ _ _ _ _ h4 i),
    fun i => real_of_test _ a5 i (Host.reduce_andi_all _ _ _ _ _ h5 i),
    fun i => real_of_test _ a6 i (Host.reduce_andi_all _ _ _ _ _ h6 i),
    fun i => real_of_test _ a7 i (Host.reduce_andi_all _ _ _ _ _ h7 i)⟩

end Cert.FiniteInputs

end
-- ==== Proof.RefRead.lean ====
/-
  The reference network's result read at one element, down to its two aggregation stages.

  The reference is a two-layer mean-aggregation network over a graph with 100000 nodes and 1280000 edges
  (src → dst). Layer 1: S = scatter-add over dst of the rows of x gathered at src, C = scatter-add over dst of
  ones (the in-degree), M = S / max(C, 1) (the mean of the neighbours' rows), h = relu(M·W_l1ᵀ + b_l1 + x·W_r1ᵀ).
  Layer 2 repeats the same with h in place of x and without the relu. Below, each dense stage is read at an
  index (p, j): a matrix product is the sum over the contracted coordinate, a bias is read at the column, the
  division and the maximum act elementwise, a transposed weight is read at the swapped index; the four
  scatter stages (two sums, two counts) stay as named terms, and are identified with their defining
  scatter-add of a gather. The constants 1.0 and 0.0 stay the f32 words 0x3F800000 and 0x00000000.
-/
import proofs.«127070_j7172595384376_2_alg».proof.Proof.Gen.ReferenceIdeal.Read
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx

local notation "ONE" => (Ideal.ofBits FTy.f32 0x3F800000#32)
local notation "ZERO" => (Ideal.ofBits FTy.f32 0x00000000#32)

variable (a0 : (⟨S100000x64, .f32⟩ : BufTy).Contents (Elt Ideal)) (a1 : (⟨S2x1280000, .i32⟩ : BufTy).Contents (Elt Ideal))
  (a2 : (⟨S128x64, .f32⟩ : BufTy).Contents (Elt Ideal)) (a3 : (⟨S128, .f32⟩ : BufTy).Contents (Elt Ideal))
  (a4 : (⟨S128x64, .f32⟩ : BufTy).Contents (Elt Ideal)) (a5 : (⟨S64x128, .f32⟩ : BufTy).Contents (Elt Ideal))
  (a6 : (⟨S64, .f32⟩ : BufTy).Contents (Elt Ideal)) (a7 : (⟨S64x128, .f32⟩ : BufTy).Contents (Elt Ideal))

/-! ### The four scatter stages are scatter-adds of gathers -/

theorem v10_eq : val_main_v10 (F := Ideal) a0 a1
    = Host.gather gather_S100000x64_S1280000x1_S1280000x64_1_0_n_n_0_1_164 a0 (val_main_v9 (F := Ideal) a1) := rfl

theorem v13_eq : val_main_v13 (F := Ideal) a0 a1
    = Host.scatterAdd (F := Ideal) (φ := .f32) scatter_S100000x64_S1280000x1_S1280000x64_1_0_0_1 (val_main_v11 (F := Ideal))
        (val_main_v12 (F := Ideal) a1) (val_main_v10 (F := Ideal) a0 a1) := rfl

theorem v17_eq : val_main_v17 (F := Ideal) a1
    = Host.scatterAdd (F := Ideal) (φ := .f32) scatter_S100000x1_S1280000x1_S1280000x1_1_0_0_1 (val_main_v15 (F := Ideal))
        (val_main_v16 (F := Ideal) a1) (val_main_v14 (F := Ideal)) := rfl

theorem v37_eq : val_main_v37 (F := Ideal) a0 a1 a2 a3 a4
    = Host.gather gather_S100000x128_S1280000x1_S1280000x128_1_0_n_n_0_1_1128 (val_main_v30 (F := Ideal) a0 a1 a2 a3 a4)
        (val_main_v36 (F := Ideal) a1) := rfl

theorem v40_eq : val_main_v40 (F := Ideal) a0 a1 a2 a3 a4
    = Host.scatterAdd (F := Ideal) (φ := .f32) scatter_S100000x128_S1280000x1_S1280000x128_1_0_0_1 (val_main_v38 (F := Ideal))
        (val_main_v39 (F := Ideal) a1) (val_main_v37 (F := Ideal) a0 a1 a2 a3 a4) := rfl

theorem v44_eq : val_main_v44 (F := Ideal) a1
    = Host.scatterAdd (F := Ideal) (φ := .f32) scatter_S100000x1_S1280000x1_S1280000x1_1_0_0_1 (val_main_v42 (F := Ideal))
        (val_main_v43 (F := Ideal) a1) (val_main_v41 (F := Ideal)) := rfl

/-! ### The scatters' initial values are zero and the counted updates are one -/

theorem v11_apply (i : S100000x64.Idx) : val_main_v11 (F := Ideal) i = ZERO := by
  rw [val_main_v11_apply, val_main_cst_apply]; rfl
theorem v15_apply (i : S100000x1.Idx) : val_main_v15 (F := Ideal) i = ZERO := by
  rw [val_main_v15_apply, val_main_cst_2_apply]; rfl
theorem v38_apply (i : S100000x128.Idx) : val_main_v38 (F := Ideal) i = ZERO := by
  rw [val_main_v38_apply, val_main_cst_6_apply]; rfl
theorem v42_apply (i : S100000x1.Idx) : val_main_v42 (F := Ideal) i = ZERO := by
  rw [val_main_v42_apply, val_main_cst_8_apply]; rfl
theorem v14_apply (i : S1280000x1.Idx) : val_main_v14 (F := Ideal) i = ONE := by
  rw [val_main_v14_apply, val_main_cst_1_apply]; rfl
theorem v41_apply (i : S1280000x1.Idx) : val_main_v41 (F := Ideal) i = ONE := by
  rw [val_main_v41_apply, val_main_cst_7_apply]; rfl

/-! ### The destination columns agree, and the source columns agree -/

theorem v12_eq_v16 : val_main_v12 (F := Ideal) a1 = val_main_v16 (F := Ideal) a1 := rfl
theorem v12_eq_v39 : val_main_v12 (F := Ideal) a1 = val_main_v39 (F := Ideal) a1 := rfl
theorem v12_eq_v43 : val_main_v12 (F := Ideal) a1 = val_main_v43 (F := Ideal) a1 := rfl

theorem v9_eq_v36 : val_main_v9 (F := Ideal) a1 = val_main_v36 (F := Ideal) a1 := rfl

/-! ### Layer 1 at an element -/

/-- The mean of the neighbours' rows: the aggregated sum over the in-degree clamped below by one. -/
theorem mean1_apply (p : Fin 100000) (k : Fin 64) :
    val_main_v21 (F := Ideal) a0 a1 (ix2 p k)
      = Ideal.div (val_main_v13 (F := Ideal) a0 a1 (ix2 p k)) (max (val_main_v17 (F := Ideal) a1 (ix2 p (0 : Fin 1))) ONE) := by
  have e : idx_main_v20 (ix2 p k) = ix2 p (0 : Fin 1) :=
    funext fun a => Fin.ext (by match a with | ⟨0, _⟩ => rfl | ⟨1, _⟩ => rfl)
  rw [val_main_v21_apply, val_main_v20_apply, val_main_v19_apply, val_main_v18_apply, val_main_cst_3_apply, e]
  rfl

/-- The hidden layer at node p, feature j: relu of (mean · W_l1ᵀ + b_l1 + x · W_r1ᵀ). -/
theorem hid_apply (p : Fin 100000) (j : Fin 128) :
    val_main_v30 (F := Ideal) a0 a1 a2 a3 a4 (ix2 p j)
      = max (((∑ k : Fin 64, Ideal.div (val_main_v13 (F := Ideal) a0 a1 (ix2 p k)) (max (val_main_v17 (F := Ideal) a1 (ix2 p (0 : Fin 1))) ONE) * a2 (ix2 j k))
                + a3 (ix1 j))
              + ∑ k : Fin 64, a0 (ix2 p k) * a4 (ix2 j k)) ZERO := by
  have e1 : ∀ k : Fin 64, lidx_main_v23 (ix2 p j) k = ix2 p k := fun k =>
    funext fun a => Fin.ext (by match a with | ⟨0, _⟩ => rfl | ⟨1, _⟩ => rfl)
  have e2 : ∀ k : Fin 64, idx_main_v22 (ridx_main_v23 (ix2 p j) k) = ix2 j k := fun k =>
    funext fun a => Fin.ext (by match a with | ⟨0, _⟩ => rfl | ⟨1, _⟩ => rfl)
  have e3 : idx_main_v24 (idx_main_v25 (ix2 p j)) = ix1 j :=
    funext fun a => Fin.ext (by match a with | ⟨0, _⟩ => rfl)
  have e4 : ∀ k : Fin 64, lidx_main_v28 (ix2 p j) k = ix2 p k := fun k =>
    funext fun a => Fin.ext (by match a with | ⟨0, _⟩ => rfl | ⟨1, _⟩ => rfl)
  have e5 : ∀ k : Fin 64, idx_main_v27 (ridx_main_v28 (ix2 p j) k) = ix2 j k := fun k =>
    funext fun a => Fin.ext (by match a with | ⟨0, _⟩ => rfl | ⟨1, _⟩ => rfl)
  rw [val_main_v30_apply, val_main_v29_apply, val_main_v26_apply, val_main_v23_apply, val_main_v25_apply,
    val_main_v24_apply, val_main_v28_apply, val_main_call0_v0_apply, val_main_call0_cst_apply, e3]
  have s1 : (∑ k : Fin 64, (val_main_v21 (F := Ideal) a0 a1) (lidx_main_v23 (ix2 p j) k) * (val_main_v22 (F := Ideal) a2) (ridx_main_v23 (ix2 p j) k))
      = ∑ k : Fin 64, Ideal.div (val_main_v13 (F := Ideal) a0 a1 (ix2 p k)) (max (val_main_v17 (F := Ideal) a1 (ix2 p (0 : Fin 1))) ONE) * a2 (ix2 j k) :=
    Finset.sum_congr rfl fun k _ => by rw [e1, val_main_v22_apply, e2, mean1_apply]
  have s2 : (∑ k : Fin 64, a0 (lidx_main_v28 (ix2 p j) k) * (val_main_v27 (F := Ideal) a4) (ridx_main_v28 (ix2 p j) k))
      = ∑ k : Fin 64, a0 (ix2 p k) * a4 (ix2 j k) :=
    Finset.sum_congr rfl fun k _ => by rw [e4, val_main_v27_apply, e5]
  rw [s1, s2]
  rfl

/-! ### Layer 2 at an element -/

/-- The mean of the neighbours' hidden rows. -/
theorem mean2_apply (p : Fin 100000) (j : Fin 128) :
    val_main_v48 (F := Ideal) a0 a1 a2 a3 a4 (ix2 p j)
      = Ideal.div (val_main_v40 (F := Ideal) a0 a1 a2 a3 a4 (ix2 p j)) (max (val_main_v44 (F := Ideal) a1 (ix2 p (0 : Fin 1))) ONE) := by
  have e : idx_main_v47 (ix2 p j) = ix2 p (0 : Fin 1) :=
    funext fun a => Fin.ext (by match a with | ⟨0, _⟩ => rfl | ⟨1, _⟩ => rfl)
  rw [val_main_v48_apply, val_main_v47_apply, val_main_v46_apply, val_main_v45_apply, val_main_cst_9_apply, e]
  rfl

/-- The result at node p, feature o: mean · W_l2ᵀ + b_l2 + h · W_r2ᵀ. -/
theorem out_apply (p : Fin 100000) (o : Fin 64) :
    val_main_v56 (F := Ideal) a0 a1 a2 a3 a4 a5 a6 a7 (ix2 p o)
      = ((∑ j : Fin 128, Ideal.div (val_main_v40 (F := Ideal) a0 a1 a2 a3 a4 (ix2 p j)) (max (val_main_v44 (F := Ideal) a1 (ix2 p (0 : Fin 1))) ONE) * a5 (ix2 o j))
            + a6 (ix1 o))
          + ∑ j : Fin 128, val_main_v30 (F := Ideal) a0 a1 a2 a3 a4 (ix2 p j) * a7 (ix2 o j) := by
  have e1 : ∀ k : Fin 128, lidx_main_v50 (ix2 p o) k = ix2 p k := fun k =>
    funext fun a => Fin.ext (by match a with | ⟨0, _⟩ => rfl | ⟨1, _⟩ => rfl)
  have e2 : ∀ k : Fin 128, idx_main_v49 (ridx_main_v50 (ix2 p o) k) = ix2 o k := fun k =>
    funext fun a => Fin.ext (by match a with | ⟨0, _⟩ => rfl | ⟨1, _⟩ => rfl)
  have e3 : idx_main_v51 (idx_main_v52 (ix2 p o)) = ix1 o :=
    funext fun a => Fin.ext (by match a with | ⟨0, _⟩ => rfl)
  have e4 : ∀ k : Fin 128, lidx_main_v55 (ix2 p o) k = ix2 p k := fun k =>
    funext fun a => Fin.ext (by match a with | ⟨0, _⟩ => rfl | ⟨1, _⟩ => rfl)
  have e5 : ∀ k : Fin 128, idx_main_v54 (ridx_main_v55 (ix2 p o) k) = ix2 o k := fun k =>
    funext fun a => Fin.ext (by match a with | ⟨0, _⟩ => rfl | ⟨1, _⟩ => rfl)
  rw [val_main_v56_apply, val_main_v53_apply, val_main_v50_apply, val_main_v52_apply, val_main_v51_apply,
    val_main_v55_apply, e3]
  have s1 : (∑ k : Fin 128, (val_main_v48 (F := Ideal) a0 a1 a2 a3 a4) (lidx_main_v50 (ix2 p o) k) * (val_main_v49 (F := Ideal) a5) (ridx_main_v50 (ix2 p o) k))
      = ∑ j : Fin 128, Ideal.div (val_main_v40 (F := Ideal) a0 a1 a2 a3 a4 (ix2 p j)) (max (val_main_v44 (F := Ideal) a1 (ix2 p (0 : Fin 1))) ONE) * a5 (ix2 o j) :=
    Finset.sum_congr rfl fun k _ => by rw [e1, val_main_v49_apply, e2, mean2_apply]
  have s2 : (∑ k : Fin 128, (val_main_v30 (F := Ideal) a0 a1 a2 a3 a4) (lidx_main_v55 (ix2 p o) k) * (val_main_v54 (F := Ideal) a7) (ridx_main_v55 (ix2 p o) k))
      = ∑ j : Fin 128, val_main_v30 (F := Ideal) a0 a1 a2 a3 a4 (ix2 p j) * a7 (ix2 o j) :=
    Finset.sum_congr rfl fun k _ => by rw [e4, val_main_v54_apply, e5]
  rw [s1, s2]
  rfl

end Cert.RefRead

end
-- ==== Proof.LibRowScatter.lean ====
import Idealize.ShloMosaic.PureOps.Ideal
import Idealize.ShloMosaic.Lib.ValueIdx

/-!
# Row gather and row accumulating scatter, read at an index

For a table `x` of `N` rows and `D` columns and a column `idx` of `E` integer row numbers:

* the ROW GATHER `x[idx]` has `E` rows; its row `e` is row `idx e` of `x`, the row number read as a signed
  integer and clamped into `[0, N - 1]`;
* the ROW ACCUMULATING SCATTER (a segment sum) of updates `upd` of `E` rows and `D` columns adds, to the entry
  `(p, q)` of `x`, the entries `upd (e, q)` of all rows `e` whose row number `idx e`, read as a signed integer, is
  exactly `p`; a row whose number is negative or at least `N` is dropped.

Both are stated for any dimension-number record whose lists are those of a gather or scatter along axis 0 with whole
rows as slices, over natural numbers `N`, `D`, `E` that stay symbolic.
-/

noncomputable section

open scoped BigOperators

namespace Idealize.ShloMosaic.RowScatter

open Idealize.ShloMosaic Idealize.ShloMosaic.ValueIdx

/-! ## The row accumulating scatter -/

section Scatter
variable {N D E : Nat}

/-- The dimension numbers of a scatter of whole rows along axis 0: operand `[N, D]`, scatter indices `[E, 1]` (one
    row number per update row, the index vector on axis 1), updates `[E, D]` whose axis 1 is the window axis. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On the row axis the window of update `(e, c)` starts at the signed row number of `e`. -/
theorem rowScatterDims_start_zero {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 0 = (idx (ix2 (j 0) 0)).toInt := by
  unfold ScatterDims.start
  rw [dif_pos (show (0 : Fin 2) ∈ (rowScatterDims N D E wf).scatterDimsToOperandDims from List.mem_singleton.mpr rfl)]
  have hsi : (rowScatterDims N D E wf).siIdx j ⟨List.idxOf (0 : Fin 2) (rowScatterDims N D E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis every window starts at `0`: no scatter index names that axis. -/
theorem rowScatterDims_start_one {w : Nat} (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) :
    (rowScatterDims N D E wf).start j idx 1 = 0 := by
  unfold ScatterDims.start
  rw [dif_neg (show (1 : Fin 2) ∉ ([0] : List (Fin 2)) by decide)]

/-- The row axis is an inserted axis: its window coordinate is `0`. -/
theorem rowScatterDims_window_zero (wf : ScatterDims.WF ⟨2, ![N, D]⟩ ⟨2, ![E, 1]⟩ ⟨2, ![E, D]⟩ [1] [0] [0] 1)
    (j : (⟨2, ![E, D]⟩ : Shape).Idx) :
    (rowScatterDims N D E wf).window j 0 = 0 := by
  unfold ScatterDims.window
  rw [dif_neg (by simp [Shape.kept, List.mem_filter])]

/-- The column axis is the window axis: its window coordinate is the update's column. -/
theorem rowScatterDims_window_one (wf : ScatterDims.WF ⟨2, ![N, D]⟩ ⟨2, ![E, 1]⟩ ⟨2, ![E, D]⟩ [1] [0] [0] 1)
    (j : (⟨2, ![E, D]⟩ : Shape).Idx) :
    (rowScatterDims N D E wf).window j 1 = (j 1).val := by
  unfold ScatterDims.window
  rw [dif_pos (by simp [Shape.kept, List.mem_filter])]
  rfl

/-- WHERE AN UPDATE LANDS: update `j = (e, c)` lands on entry `(p, q)` exactly when the signed row number of `e` is
    `p` and `c = q`. A row number outside `[0, N)` equals no `p`, so such an update lands nowhere. -/
theorem rowScatterDims_resultIdx?_eq_some_iff {w : Nat}
    (wf : ScatterDims.WF ⟨2, ![N, D]⟩ ⟨2, ![E, 1]⟩ ⟨2, ![E, D]⟩ [1] [0] [0] 1)
    (j : (⟨2, ![E, D]⟩ : Shape).Idx) (idx : IVec ⟨2, ![E, 1]⟩ w) (p : Fin N) (q : Fin D) :
    (rowScatterDims N D E wf).resultIdx? j idx = some (ix2 p q) ↔
      (idx (ix2 (j 0) 0)).toInt = (p.val : Int) ∧ j 1 = q := by
  have hs0 := rowScatterDims_start_zero wf j idx
  have hs1 := rowScatterDims_start_one wf j idx
  have hw0 := rowScatterDims_window_zero wf j
  have hw1 := rowScatterDims_window_one wf j
  have hjD : (j 1).val < D := idx2_lt1 j
  have hpN : p.val < N := p.isLt
  unfold ScatterDims.resultIdx?
  split
  · rename_i h
    rw [Option.some.injEq]
    constructor
    · intro hf
      have e0 : ((rowScatterDims N D E wf).start j idx 0 + ((rowScatterDims N D E wf).window j 0 : Nat)).toNat = p.val :=
        congrArg (fun f : (⟨2, ![N, D]⟩ : Shape).Idx => (f 0).val) hf
      have e1 : ((rowScatterDims N D E wf).start j idx 1 + ((rowScatterDims N D E wf).window j 1 : Nat)).toNat = q.val :=
        congrArg (fun f : (⟨2, ![N, D]⟩ : Shape).Idx => (f 1).val) hf
      have h0 := (h 0).1
      rw [hs0, hw0] at e0 h0
      rw [hs1, hw1] at e1
      refine ⟨by omega, Fin.ext (by omega)⟩
    · rintro ⟨ht, hq⟩
      funext a; refine Fin.ext ?_
      match a with
      | ⟨0, _⟩ =>
        show ((rowScatterDims N D E wf).start j idx 0 + ((rowScatterDims N D E wf).window j 0 : Nat)).toNat = p.val
        rw [hs0, hw0, ht]; omega
      | ⟨1, _⟩ =>
        show ((rowScatterDims N D E wf).start j idx 1 + ((rowScatterDims N D E wf).window j 1 : Nat)).toNat = q.val
        rw [hs1, hw1, hq]; omega
  · rename_i h
    constructor
    · intro hn; cases hn
    · rintro ⟨ht, hq⟩
      refine absurd (fun a => ?_) h
      match a with
      | ⟨0, _⟩ =>
        show 0 ≤ (rowScatterDims N D E wf).start j idx 0 + ((rowScatterDims N D E wf).window j 0 : Nat) ∧
          (rowScatterDims N D E wf).start j idx 0 + ((rowScatterDims N D E wf).window j 0 : Nat) < (N : Int)
        rw [hs0, hw0, ht]; omega
      | ⟨1, _⟩ =>
        show 0 ≤ (rowScatterDims N D E wf).start j idx 1 + ((rowScatterDims N D E wf).window j 1 : Nat) ∧
          (rowScatterDims N D E wf).start j idx 1 + ((rowScatterDims N D E wf).window j 1 : Nat) < (D : Int)
        rw [hs1, hw1]; omega

/-- THE ROW ACCUMULATING SCATTER READ AT `(p, q)`, at the ideal instance: the operand's entry plus the sum, over the
    update rows `e` whose signed row number is exactly `p`, of the update's entry `(e, q)`. Update rows whose row
    number is negative or at least `N` contribute nothing. Holds for every record `d` with these dimension
    numbers. -/
theorem scatterAdd_rows_apply {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (p : Fin N) (q : Fin D) :
    Host.scatterAdd (F := Ideal) d x idx upd (ix2 p q) =
      x (ix2 p q) + ∑ e ∈ Finset.univ.filter (fun e : Fin E => (idx (ix2 e 0)).toInt = (p.val : Int)), upd (ix2 e q) := by
  obtain ⟨uw, iw, sd, iv, wf⟩ := d
  simp only at h1 h2 h3 h4
  subst h1 h2 h3 h4
  show x (ix2 p q) + ∑ j ∈ Finset.univ.filter
      (fun j => (rowScatterDims N D E wf).resultIdx? j idx = some (ix2 p q)), upd j = _
  congr 1
  rw [Finset.sum_filter, Finset.sum_filter, sum_idx2]
  refine Finset.sum_congr rfl fun e _ => ?_
  have hcond : ∀ b : Fin D, ((rowScatterDims N D E wf).resultIdx? (ix2 e b) idx = some (ix2 p q)) ↔
      ((idx (ix2 e 0)).toInt = (p.val : Int) ∧ b = q) :=
    fun b => rowScatterDims_resultIdx?_eq_some_iff wf (ix2 e b) idx p q
  simp only [hcond]
  by_cases hp : (idx (ix2 e 0)).toInt = (p.val : Int)
  · simp [hp]
  · simp [hp]

/-- The same scatter when every update entry is one value `c` (a count of the rows sent to `p`, weighted by `c`): the
    operand's entry plus `c` summed once for every update row whose signed row number is exactly `p`. -/
theorem scatterAdd_rows_apply_of_const {φ : FTy} {w : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ) (c : Ideal φ)
    (hc : ∀ j, upd j = c) (p : Fin N) (q : Fin D) :
    Host.scatterAdd (F := Ideal) d x idx upd (ix2 p q) =
      x (ix2 p q) + ∑ _e ∈ Finset.univ.filter (fun e : Fin E => (idx (ix2 e 0)).toInt = (p.val : Int)), c := by
  rw [scatterAdd_rows_apply d h1 h2 h3 h4 x idx upd p q]
  simp only [hc]

end Scatter

/-! ## The row gather -/

section Gather
variable {N D E : Nat} {α : Type}

/-- The row number of gathered row `e`: the entry `idx (e, 0)` read as a signed integer and clamped into
    `[0, N - 1]` (a negative number reads row `0`, a number past the end reads the last row). -/
def clampRow {w : Nat} (hN : 0 < N) (idx : IVec ⟨2, ![E, 1]⟩ w) (e : Fin E) : Fin N :=
  ⟨min (idx (ix2 e 0)).toInt.toNat (N - 1), by omega⟩

/-- The clamped row number as a natural number. -/
theorem clampRow_val {w : Nat} (hN : 0 < N) (idx : IVec ⟨2, ![E, 1]⟩ w) (e : Fin E) :
    (clampRow hN idx e).val = min (idx (ix2 e 0)).toInt.toNat (N - 1) := rfl

/-- A row number that is already in range is not changed by the clamp. -/
theorem clampRow_of_toInt_eq {w : Nat} (hN : 0 < N) (idx : IVec ⟨2, ![E, 1]⟩ w) (e : Fin E) (p : Fin N)
    (h : (idx (ix2 e 0)).toInt = (p.val : Int)) : clampRow hN idx e = p := by
  refine Fin.ext ?_
  have hp := p.isLt
  rw [clampRow_val, h]
  omega

/-- A row number below `N` is clamped from below only: the clamp is its natural-number part (`0` when it is negative). -/
theorem clampRow_val_of_lt {w : Nat} (hN : 0 < N) (idx : IVec ⟨2, ![E, 1]⟩ w) (e : Fin E)
    (h : (idx (ix2 e 0)).toInt < (N : Int)) : (clampRow hN idx e).val = (idx (ix2 e 0)).toInt.toNat := by
  rw [clampRow_val]
  omega

/-- The dimension numbers of a gather of whole rows along axis 0: operand `[N, D]`, start indices `[E, 1]` (one row
    number per result row, the index vector on axis 1), slices of one row (`[1, D]`) with the row axis collapsed,
    result `[E, D]` whose axis 1 is the offset axis. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the operand's entry in column `q` of the row whose number is `idx (e, 0)`, read
    signed and clamped into `[0, N - 1]`. Holds for every record `g` with these dimension numbers and slice sizes. -/
theorem gather_rows_apply {w : Nat} (hN : 0 < N) (g : GatherDims ⟨2, ![N, D]⟩ ⟨2, ![E, 1]⟩ ⟨2, ![E, D]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, D])
    (x : (⟨2, ![N, D]⟩ : Shape).Idx → α) (idx : IVec ⟨2, ![E, 1]⟩ w) (e : Fin E) (q : Fin D) :
    Host.gather g x idx (ix2 e q) = x (ix2 (clampRow hN idx e) q) := by
  obtain ⟨od, cd, ob, sb, sm, iv, ss, wf⟩ := g
  simp only at h1 h2 h3 h4 h5 h6 h7
  subst h1 h2 h3 h4 h5 h6 h7
  show x ((rowGatherDims N D E wf).operandIdx (ix2 e q) idx) = _
  congr 1
  funext a; refine Fin.ext ?_
  match a with
  | ⟨0, _⟩ =>
    show (rowGatherDims N D E wf).start (ix2 e q) idx 0 + (rowGatherDims N D E wf).batchCoord (ix2 e q) 0 +
      (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1 +
      (rowGatherDims N D E wf).offCoord (ix2 e q) 1 = q.val
    have hst : (rowGatherDims N D E wf).start (ix2 e q) idx 1 = 0 := by
      unfold GatherDims.start
      rw [dif_neg (show (1 : Fin 2) ∉ ([0] : List (Fin 2)) by decide)]
    have hoff : (rowGatherDims N D E wf).offCoord (ix2 e q) 1 = q.val := by
      unfold GatherDims.offCoord
      rw [dif_pos (by simp [Shape.kept, List.mem_filter])]
      rfl
    rw [GatherDims.batchCoord_eq_zero _ _ _ List.not_mem_nil, hst, hoff]
    omega

end Gather

end Idealize.ShloMosaic.RowScatter

end
-- ==== Proof.SageLaw.lean ====
import Idealize.ShloMosaic.PureOps.Ideal
import Mathlib

/-!
# A two-layer mean-aggregation network in two arrangements

Nodes `i : Fin N` carry feature vectors `x i : Fin A → EReal`.  Every node `i` aggregates a
finite set `hit i` of edges; edge `e` reads node `cl e`.  A layer maps a feature table `f` to
`(mean of f over the edges of i) · Wl + f i · Wr + b`, the mean being the sum over the edges
divided by a per-node divisor `Dn i`; the first layer is followed by `max · 0`.

The two arrangements differ in
* the order in which the three summands of a layer are added, and
* whether the second layer multiplies by `Wl2` before or after aggregating over the edges.

The first difference is commutativity and associativity of addition on the extended reals and
needs no hypothesis.  The second is the identity
`(∑ₑ ∑ⱼ h (cl e) j · w j) / d = ∑ⱼ ((∑ₑ h (cl e) j) / d) · w j`,
an interchange of two finite sums together with distributivity; it holds once the hidden values
`h`, the weights `w` and the divisor `d ≠ 0` are real numbers, where the computation takes place
inside `ℝ`.
-/

open Idealize.ShloMosaic
open scoped BigOperators

noncomputable section

namespace Cert.SageLaw

/-! ## Real extended reals are closed under the operations used -/

/-- The coercion `ℝ → EReal` commutes with finite sums. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The sum of two real extended reals is real. -/
theorem real_add {a b : EReal} (ha : ∃ r : ℝ, a = r) (hb : ∃ r : ℝ, b = r) :
    ∃ r : ℝ, a + b = r := by
  obtain ⟨ra, rfl⟩ := ha
  obtain ⟨rb, rfl⟩ := hb
  exact ⟨ra + rb, (EReal.coe_add ra rb).symm⟩

/-- The product of two real extended reals is real. -/
theorem real_mul {a b : EReal} (ha : ∃ r : ℝ, a = r) (hb : ∃ r : ℝ, b = r) :
    ∃ r : ℝ, a * b = r := by
  obtain ⟨ra, rfl⟩ := ha
  obtain ⟨rb, rfl⟩ := hb
  exact ⟨ra * rb, (EReal.coe_mul ra rb).symm⟩

/-- A finite sum of real extended reals is real. -/
theorem real_sum {ι : Type*} (s : Finset ι) (f : ι → EReal) (hf : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (hf a (Finset.mem_insert_self a s))
      (ih fun i hi => hf i (Finset.mem_insert_of_mem hi))

/-- A real extended real divided by a nonzero real is real: it is the product with the
reciprocal. -/
theorem real_div {a d : EReal} (ha : ∃ r : ℝ, a = r) (hd : ∃ r : ℝ, r ≠ 0 ∧ d = r) :
    ∃ r : ℝ, Ideal.div a d = r := by
  obtain ⟨ra, rfl⟩ := ha
  obtain ⟨rd, hne, rfl⟩ := hd
  exact ⟨ra * (1 / rd), by rw [Ideal.div_coe hne, ← EReal.coe_mul]⟩

/-- The coercion `ℝ → EReal` is monotone, so it commutes with the maximum of two numbers. -/
theorem coe_max (a b : ℝ) : ((max a b : ℝ) : EReal) = max (a : EReal) (b : EReal) :=
  EReal.coe_strictMono.monotone.map_max

/-- The maximum of a real number and zero, taken in the extended reals, is the real maximum. -/
theorem coe_max_zero (r : ℝ) : max (r : EReal) 0 = ((max r 0 : ℝ) : EReal) := by
  rw [← EReal.coe_zero, coe_max]

/-- The maximum of a real extended real and zero is real. -/
theorem real_max_zero {a : EReal} (ha : ∃ r : ℝ, a = r) : ∃ r : ℝ, max a 0 = r := by
  obtain ⟨ra, rfl⟩ := ha
  exact ⟨max ra 0, coe_max_zero ra⟩

/-- The number of elements of a finite set, floored at one, is a nonzero real: the divisor of a
mean over that set. -/
theorem count_real {E : ℕ} (s : Finset (Fin E)) :
    ∃ r : ℝ, r ≠ 0 ∧ max ((0 : EReal) + ∑ e ∈ s, (1 : EReal)) 1 = r := by
  refine ⟨max (s.card : ℝ) 1, ?_, ?_⟩
  · have : (1 : ℝ) ≤ max (s.card : ℝ) 1 := le_max_right _ _
    linarith
  · have h1 : (∑ e ∈ s, (1 : EReal)) = ((s.card : ℝ) : EReal) := by
      have := coe_finset_sum s (fun _ => (1 : ℝ))
      simp only [Finset.sum_const, nsmul_eq_mul, mul_one, EReal.coe_one] at this
      rw [this]
      simp
    rw [h1, zero_add, ← EReal.coe_one, coe_max]

/-! ## The interchange of aggregation and the second weight matrix -/

/-- Over the reals, with a nonzero divisor: the mean over the edges of the weighted sum over the
hidden coordinates is the weighted sum of the means.  Interchange the two finite sums and pull the
constant factors through. -/
theorem div_sum_sum_eq {ι κ : Type*} [Fintype κ] (s : Finset ι) (h : ι → κ → ℝ) (w : κ → ℝ)
    {d : ℝ} (hd : d ≠ 0) :
    Ideal.div (∑ e ∈ s, ∑ j, (h e j : EReal) * (w j : EReal)) (d : EReal)
      = ∑ j, Ideal.div (∑ e ∈ s, (h e j : EReal)) (d : EReal) * (w j : EReal) := by
  have hL : (∑ e ∈ s, ∑ j, (h e j : EReal) * (w j : EReal))
      = ((∑ e ∈ s, ∑ j, h e j * w j : ℝ) : EReal) := by
    rw [coe_finset_sum]
    refine Finset.sum_congr rfl fun e _ => ?_
    rw [coe_finset_sum]
    refine Finset.sum_congr rfl fun j _ => ?_
    rw [EReal.coe_mul]
  have hR : ∀ j, Ideal.div (∑ e ∈ s, (h e j : EReal)) (d : EReal) * (w j : EReal)
      = (((∑ e ∈ s, h e j) * (1 / d) * w j : ℝ) : EReal) := by
    intro j
    rw [Ideal.div_coe hd, ← coe_finset_sum, ← EReal.coe_mul, ← EReal.coe_mul]
  rw [hL, Ideal.div_coe hd, ← EReal.coe_mul]
  simp only [hR]
  rw [← coe_finset_sum]
  congr 1
  rw [Finset.sum_comm, Finset.sum_mul]
  refine Finset.sum_congr rfl fun j _ => ?_
  rw [← Finset.sum_mul]
  ring

/-! ## The network -/

variable {N E A B C : ℕ} (hit : Fin N → Finset (Fin E)) (cl : Fin E → Fin N)
  (Dn : Fin N → EReal) (x : Fin N → Fin A → EReal)
  (Wl1 : Fin B → Fin A → EReal) (b1 : Fin B → EReal) (Wr1 : Fin B → Fin A → EReal)
  (Wl2 : Fin C → Fin B → EReal) (b2 : Fin C → EReal) (Wr2 : Fin C → Fin B → EReal)

/-- First-layer aggregation: the sum of the input features over the edges of node `i`, divided by
the node's divisor. -/
def mean1 (i : Fin N) (k : Fin A) : EReal := Ideal.div (∑ e ∈ hit i, x (cl e) k) (Dn i)

/-- Hidden layer, first arrangement: `max ((mean · Wl1 + x · Wr1) + b1) 0`. -/
def hidK (i : Fin N) (j : Fin B) : EReal :=
  max (((∑ k, mean1 hit cl Dn x i k * Wl1 j k) + (∑ k, x i k * Wr1 j k)) + b1 j) 0

/-- Hidden layer, second arrangement: `max ((mean · Wl1 + b1) + x · Wr1) 0`. -/
def hidR (i : Fin N) (j : Fin B) : EReal :=
  max (((∑ k, mean1 hit cl Dn x i k * Wl1 j k) + b1 j) + (∑ k, x i k * Wr1 j k)) 0

/-- The hidden layer multiplied by `Wl2` before aggregation. -/
def pre2 (i : Fin N) (o : Fin C) : EReal := ∑ j, hidK hit cl Dn x Wl1 b1 Wr1 i j * Wl2 o j

/-- Output, first arrangement: aggregate the already-multiplied hidden layer, then add the root
term and the bias. -/
def outK (i : Fin N) (o : Fin C) : EReal :=
  (Ideal.div (∑ e ∈ hit i, pre2 hit cl Dn x Wl1 b1 Wr1 Wl2 (cl e) o) (Dn i)
    + ∑ j, hidK hit cl Dn x Wl1 b1 Wr1 i j * Wr2 o j) + b2 o

/-- Output, second arrangement: aggregate the hidden layer, multiply the mean by `Wl2`, add the
bias and then the root term. -/
def outR (i : Fin N) (o : Fin C) : EReal :=
  ((∑ j, Ideal.div (∑ e ∈ hit i, hidR hit cl Dn x Wl1 b1 Wr1 (cl e) j) (Dn i) * Wl2 o j) + b2 o)
    + ∑ j, hidR hit cl Dn x Wl1 b1 Wr1 i j * Wr2 o j

/-- The two hidden layers agree everywhere: addition on the extended reals is commutative and
associative, so `(a + s) + b = (a + b) + s`. -/
theorem hidK_eq_hidR : hidK hit cl Dn x Wl1 b1 Wr1 = hidR hit cl Dn x Wl1 b1 Wr1 := by
  funext i j
  unfold hidK hidR
  rw [add_right_comm]

/-- With real inputs, real first-layer parameters and nonzero real divisors, every hidden value
is real. -/
theorem hidK_real (hx : ∀ i k, ∃ r : ℝ, x i k = r) (hWl1 : ∀ j k, ∃ r : ℝ, Wl1 j k = r)
    (hb1 : ∀ j, ∃ r : ℝ, b1 j = r) (hWr1 : ∀ j k, ∃ r : ℝ, Wr1 j k = r)
    (hD : ∀ i, ∃ r : ℝ, r ≠ 0 ∧ Dn i = r) :
    ∀ i j, ∃ r : ℝ, hidK hit cl Dn x Wl1 b1 Wr1 i j = r := by
  intro i j
  unfold hidK
  refine real_max_zero (real_add (real_add ?_ ?_) (hb1 j))
  · refine real_sum _ _ fun k _ => real_mul ?_ (hWl1 j k)
    unfold mean1
    exact real_div (real_sum _ _ fun e _ => hx (cl e) k) (hD i)
  · exact real_sum _ _ fun k _ => real_mul (hx i k) (hWr1 j k)

/-- The two arrangements of the network agree at every node and output coordinate, provided the
inputs, the first-layer parameters and `Wl2` are real and the divisors are nonzero reals.  Nothing
is assumed of `b2` or `Wr2`. -/
theorem outK_eq_outR (hx : ∀ i k, ∃ r : ℝ, x i k = r) (hWl1 : ∀ j k, ∃ r : ℝ, Wl1 j k = r)
    (hb1 : ∀ j, ∃ r : ℝ, b1 j = r) (hWr1 : ∀ j k, ∃ r : ℝ, Wr1 j k = r)
    (hD : ∀ i, ∃ r : ℝ, r ≠ 0 ∧ Dn i = r) (hWl2 : ∀ o j, ∃ r : ℝ, Wl2 o j = r) :
    ∀ i o, outK hit cl Dn x Wl1 b1 Wr1 Wl2 b2 Wr2 i o = outR hit cl Dn x Wl1 b1 Wr1 Wl2 b2 Wr2 i o := by
  intro i o
  choose h hh using hidK_real hit cl Dn x Wl1 b1 Wr1 hx hWl1 hb1 hWr1 hD
  choose w hw using hWl2
  obtain ⟨d, hd, hDi⟩ := hD i
  unfold outK outR pre2
  rw [← hidK_eq_hidR, add_right_comm]
  congr 2
  simp only [hh, hw, hDi]
  exact div_sum_sum_eq (hit i) (fun e j => h (cl e) j) (w o) hd

end Cert.SageLaw
-- ==== Proof.SageInst.lean ====
/-
  The network's data read off the argument arrays, at the ideal values.

  From the edge array: the destination column and the source column (negative entries wrapped once), as the reference
  program computes them; the set of edges whose destination is a given node (an edge whose destination lies outside the
  node range is aggregated nowhere); the source row an edge reads (clamped into the node range); the neighbour count
  raised to at least one. From the float arrays: the features and the six weight and bias arrays as functions of
  coordinates. The count is a sum of ones over a finite set and so a nonzero real.
-/
import proofs.«127070_j7172595384376_2_alg».proof.Proof.RefRead
import proofs.«127070_j7172595384376_2_alg».proof.Proof.LibRowScatter
import proofs.«127070_j7172595384376_2_alg».proof.Proof.SageLaw

noncomputable section

namespace Cert.SageInst

open Cert.ReferenceIdeal Cert.ReferenceIdeal.Read Idealize.ShloMosaic Idealize.ShloMosaic.ValueIdx Idealize.ShloMosaic.RowScatter

variable (a0 : (⟨S100000x64, .f32⟩ : BufTy).Contents (Elt Ideal)) (a1 : (⟨S2x1280000, .i32⟩ : BufTy).Contents (Elt Ideal))
  (a2 : (⟨S128x64, .f32⟩ : BufTy).Contents (Elt Ideal)) (a3 : (⟨S128, .f32⟩ : BufTy).Contents (Elt Ideal))
  (a4 : (⟨S128x64, .f32⟩ : BufTy).Contents (Elt Ideal)) (a5 : (⟨S64x128, .f32⟩ : BufTy).Contents (Elt Ideal))
  (a6 : (⟨S64, .f32⟩ : BufTy).Contents (Elt Ideal)) (a7 : (⟨S64x128, .f32⟩ : BufTy).Contents (Elt Ideal))

/-- The edges aggregated into node i: those whose destination entry, read signed, is i. -/
def hit (i : Fin 100000) : Finset (Fin 1280000) :=
  Finset.univ.filter (fun e : Fin 1280000 => ((val_main_v12 (F := Ideal) a1) (ix2 e 0)).toInt = (i.val : Int))

/-- The node an edge reads: its wrapped source entry clamped into the node range. -/
def cl (e : Fin 1280000) : Fin 100000 := clampRow (N := 100000) (by decide) (val_main_v9 (F := Ideal) a1) e

/-- The divisor of node i's mean: its neighbour count raised to at least one. -/
def Dn (i : Fin 100000) : EReal := max (val_main_v17 (F := Ideal) a1 (ix2 i (0 : Fin 1))) (Ideal.ofBits .f32 0x3F800000#32)

/-- The node features by coordinates. -/
def x (i : Fin 100000) (k : Fin 64) : EReal := a0 (ix2 i k)
/-- The first layer's neighbour weights. -/
def Wl1 (j : Fin 128) (k : Fin 64) : EReal := a2 (ix2 j k)
/-- The first layer's bias. -/
def b1 (j : Fin 128) : EReal := a3 (ix1 j)
/-- The first layer's root weights. -/
def Wr1 (j : Fin 128) (k : Fin 64) : EReal := a4 (ix2 j k)
/-- The second layer's neighbour weights. -/
def Wl2 (o : Fin 64) (j : Fin 128) : EReal := a5 (ix2 o j)
/-- The second layer's bias. -/
def b2 (o : Fin 64) : EReal := a6 (ix1 o)
/-- The second layer's root weights. -/
def Wr2 (o : Fin 64) (j : Fin 128) : EReal := a7 (ix2 o j)

/-- The word of the float one denotes the real number one. -/
theorem one_eq : Ideal.ofBits .f32 0x3F800000#32 = 1 := by
  simp [Ideal.ofBits, Ideal.ieee]
  rw [← EReal.coe_mul, ← EReal.coe_one]
  congr 1
  norm_num

/-- The neighbour count of node i is the number of edges aggregated into it, as a sum of ones from zero. -/
theorem count_apply (i : Fin 100000) :
    val_main_v17 (F := Ideal) a1 (ix2 i (0 : Fin 1)) = (0 : EReal) + ∑ _e ∈ hit a1 i, (1 : EReal) := by
  rw [Cert.RefRead.v17_eq, ← Cert.RefRead.v12_eq_v16]
  rw [scatterAdd_rows_apply_of_const scatter_S100000x1_S1280000x1_S1280000x1_1_0_0_1 rfl rfl rfl rfl _ _ _
    (Ideal.ofBits .f32 0x3F800000#32) (fun j => Cert.RefRead.v14_apply j) i (0 : Fin 1)]
  rw [Cert.RefRead.v15_apply, Ideal.ofBits_zero_f32, one_eq]
  rfl

/-- The divisor is a nonzero real. -/
theorem Dn_real (i : Fin 100000) : ∃ r : ℝ, r ≠ 0 ∧ Dn a1 i = r := by
  unfold Dn
  rw [count_apply, one_eq]
  exact Cert.SageLaw.count_real (hit a1 i)

end Cert.SageInst

end
-- ==== Proof.RefValue.lean ====
/-
  The reference network's result is the second arrangement of the two-layer mean-aggregation law.

  Each aggregation stage of the reference is a scatter-add, from zero, of a row gather along the destination
  column: read at (p, q) it is the sum, over the edges whose destination is p, of the gathered row's entry q, and
  the gathered row of edge e is the row of the node that e reads. Substituting these sums into the dense stages
  read at an element gives the law's hidden layer and output, with the features, weights, biases and divisors read
  off the argument arrays. The float word 0 denotes the number zero, so the scatters start from 0 and the relu is
  the maximum with 0. The second layer's neighbour count is the first layer's: the same operations of the same
  edge array.
-/
import proofs.«127070_j7172595384376_2_alg».proof.Proof.SageInst

noncomputable section

namespace Cert.RefValue

open Cert.ReferenceIdeal Cert.ReferenceIdeal.Read Idealize.ShloMosaic Idealize.ShloMosaic.ValueIdx Idealize.ShloMosaic.RowScatter

variable (a0 : (⟨S100000x64, .f32⟩ : BufTy).Contents (Elt Ideal)) (a1 : (⟨S2x1280000, .i32⟩ : BufTy).Contents (Elt Ideal))
  (a2 : (⟨S128x64, .f32⟩ : BufTy).Contents (Elt Ideal)) (a3 : (⟨S128, .f32⟩ : BufTy).Contents (Elt Ideal))
  (a4 : (⟨S128x64, .f32⟩ : BufTy).Contents (Elt Ideal)) (a5 : (⟨S64x128, .f32⟩ : BufTy).Contents (Elt Ideal))
  (a6 : (⟨S64, .f32⟩ : BufTy).Contents (Elt Ideal)) (a7 : (⟨S64x128, .f32⟩ : BufTy).Contents (Elt Ideal))

/-- First-layer aggregation at (p, k): the sum, over the edges into p, of feature k of the node each edge reads. -/
theorem agg1_apply (p : Fin 100000) (k : Fin 64) :
    val_main_v13 (F := Ideal) a0 a1 (ix2 p k) = ∑ e ∈ Cert.SageInst.hit a1 p, Cert.SageInst.x a0 (Cert.SageInst.cl a1 e) k := by
  rw [Cert.RefRead.v13_eq,
    scatterAdd_rows_apply scatter_S100000x64_S1280000x1_S1280000x64_1_0_0_1 rfl rfl rfl rfl _ _ _ p k,
    Cert.RefRead.v11_apply, Ideal.ofBits_zero_f32, zero_add]
  refine Finset.sum_congr rfl fun e _ => ?_
  rw [Cert.RefRead.v10_eq,
    gather_rows_apply (N := 100000) (by decide : 0 < 100000) gather_S100000x64_S1280000x1_S1280000x64_1_0_n_n_0_1_164
      rfl rfl rfl rfl rfl rfl rfl a0 _ e k]
  rfl

/-- The reference's hidden layer is the law's, in its second arrangement. -/
theorem hid_ref (p : Fin 100000) (j : Fin 128) :
    val_main_v30 (F := Ideal) a0 a1 a2 a3 a4 (ix2 p j)
      = Cert.SageLaw.hidR (Cert.SageInst.hit a1) (Cert.SageInst.cl a1) (Cert.SageInst.Dn a1) (Cert.SageInst.x a0)
          (Cert.SageInst.Wl1 a2) (Cert.SageInst.b1 a3) (Cert.SageInst.Wr1 a4) p j := by
  rw [Cert.RefRead.hid_apply, Ideal.ofBits_zero_f32]
  unfold Cert.SageLaw.hidR Cert.SageLaw.mean1
  simp only [agg1_apply]
  rfl

/-- Second-layer aggregation at (p, j): the sum, over the edges into p, of hidden feature j of the node each edge reads. -/
theorem agg2_apply (p : Fin 100000) (j : Fin 128) :
    val_main_v40 (F := Ideal) a0 a1 a2 a3 a4 (ix2 p j)
      = ∑ e ∈ Cert.SageInst.hit a1 p,
          Cert.SageLaw.hidR (Cert.SageInst.hit a1) (Cert.SageInst.cl a1) (Cert.SageInst.Dn a1) (Cert.SageInst.x a0)
            (Cert.SageInst.Wl1 a2) (Cert.SageInst.b1 a3) (Cert.SageInst.Wr1 a4) (Cert.SageInst.cl a1 e) j := by
  rw [Cert.RefRead.v40_eq, ← Cert.RefRead.v12_eq_v39,
    scatterAdd_rows_apply scatter_S100000x128_S1280000x1_S1280000x128_1_0_0_1 rfl rfl rfl rfl _ _ _ p j,
    Cert.RefRead.v38_apply, Ideal.ofBits_zero_f32, zero_add]
  refine Finset.sum_congr rfl fun e _ => ?_
  rw [Cert.RefRead.v37_eq, ← Cert.RefRead.v9_eq_v36,
    gather_rows_apply (N := 100000) (by decide : 0 < 100000) gather_S100000x128_S1280000x1_S1280000x128_1_0_n_n_0_1_1128
      rfl rfl rfl rfl rfl rfl rfl _ _ e j]
  exact hid_ref a0 a1 a2 a3 a4 (Cert.SageInst.cl a1 e) j

/-- The second layer's neighbour count is the first layer's. -/
theorem count2_eq (p : Fin 100000) :
    val_main_v44 (F := Ideal) a1 (ix2 p (0 : Fin 1)) = val_main_v17 (F := Ideal) a1 (ix2 p (0 : Fin 1)) :=
  congrFun (show val_main_v44 (F := Ideal) a1 = val_main_v17 (F := Ideal) a1 from rfl) _

/-- The reference's result is the law's output, in its second arrangement. -/
theorem ref_apply (p : Fin 100000) (o : Fin 64) :
    val_main_v56 (F := Ideal) a0 a1 a2 a3 a4 a5 a6 a7 (ix2 p o)
      = Cert.SageLaw.outR (Cert.SageInst.hit a1) (Cert.SageInst.cl a1) (Cert.SageInst.Dn a1) (Cert.SageInst.x a0)
          (Cert.SageInst.Wl1 a2) (Cert.SageInst.b1 a3) (Cert.SageInst.Wr1 a4) (Cert.SageInst.Wl2 a5) (Cert.SageInst.b2 a6)
          (Cert.SageInst.Wr2 a7) p o := by
  rw [Cert.RefRead.out_apply]
  unfold Cert.SageLaw.outR
  simp only [agg2_apply, count2_eq, hid_ref]
  rfl

end Cert.RefValue

end
-- ==== Proof.KernelRun.lean ====
/-
  The idealized kernel's whole run with its result named. The program is two grid regions among two stretches of host
  operations; the buffer contents at the four boundaries are a fold from the launch memory, and at the return every
  unscoped buffer holds the last boundary's contents. Here that fact is kept for the result buffer as well as for the
  eight arguments: every weakly fair execution ends with the result at the last boundary's value of its buffer and the
  arguments as launched.
-/
import proofs.«127070_j7172595384376_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates without a fault; the result buffer ends at the last
    boundary's contents of it, and the eight argument arrays end as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.KernelHost.lean ====
import proofs.«127070_j7172595384376_2_alg».proof.Proof.Gen.KernelIdeal.Frame
import proofs.«127070_j7172595384376_2_alg».proof.Proof.Gen.ReferenceIdeal.Read
import Idealize.ShloMosaic.Lib.StableHlo.Run
import Idealize.ShloMosaic.Lib.ValueLayout
import Idealize.ShloMosaic.Lib.ValueIdx

/-!
# The two stretches of host operations of the two-layer program, read as values

Between its two fused regions the program prepares operands by whole-array operations: it splits the
edge list `a1 : [2, 1280000]` into a source column and a destination column, wraps negative source
indices (`select (src < 0) (src + 100000) src`), gathers the node features along the source column,
scatter-adds them and a column of ones along the destination column (the neighbourhood sum and the
neighbour count), transposes the four weight matrices and adds a unit axis to each bias.

Over the extended reals a change of float format is the identity, so a gather of the narrowed
features widened again is the gather of the features themselves.  Every operand prepared by the first
stretch is therefore the same composition of whole-array operations of the arguments as the
corresponding stage of the specification, and the equalities below hold by unfolding definitions; no
array is ever evaluated.

The second stretch repeats the index preparation and aggregates the array `T` that the first fused
region left (kept opaque here) with the same gather and scatter-add.  Buffers that neither a stretch
nor the first region writes are walked back to their earlier contents.
-/

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The first stretch -/

/-- The source-index column before wrapping: row 0 of the edge list, flattened. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  unfold Cert.ReferenceIdeal.Read.val_main_v1 Cert.ReferenceIdeal.Read.val_main_v0
  rfl

/-- The destination-index column: row 1 of the edge list, flattened. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  unfold Cert.ReferenceIdeal.Read.val_main_v3 Cert.ReferenceIdeal.Read.val_main_v2
  rfl

/-- The neighbour count: ones scatter-added onto zeros along the destination column. -/
theorem W1_v7 : W1 m ρ c (Proc.devRef .tc main_v7) = Cert.ReferenceIdeal.Read.val_main_v17 (F := Ideal) (m ((c : Thread nD τ).loc main_arg1)) := by
  show StableHlo.after hostOps0 (W0 m ρ c) (Proc.devRef .tc main_v7) = _
  after_results
  unfold Cert.ReferenceIdeal.Read.val_main_v17 Cert.ReferenceIdeal.Read.val_main_v15 Cert.ReferenceIdeal.Read.val_main_v16 Cert.ReferenceIdeal.Read.val_main_v14 Cert.ReferenceIdeal.Read.val_main_v3
    Cert.ReferenceIdeal.Read.val_main_v2 Cert.ReferenceIdeal.Read.val_main_cst_1 Cert.ReferenceIdeal.Read.val_main_cst_2
  rfl

set_option maxHeartbeats 800000 in
/-- The first layer's neighbourhood sum: the features gathered along the wrapped source column and
scatter-added onto zeros along the destination column.  The narrowing of the features before the
gather and the widening after it are the identity on the extended reals. -/
theorem W1_v19 : W1 m ρ c (Proc.devRef .tc main_v19)
    = Cert.ReferenceIdeal.Read.val_main_v13 (F := Ideal) (m ((c : Thread nD τ).loc main_arg0)) (m ((c : Thread nD τ).loc main_arg1)) := by
  show StableHlo.after hostOps0 (W0 m ρ c) (Proc.devRef .tc main_v19) = _
  after_results
  unfold Cert.ReferenceIdeal.Read.val_main_v13 Cert.ReferenceIdeal.Read.val_main_v12 Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_cst
  rfl

/-- The four weight matrices, transposed. -/
theorem W1_v20 : W1 m ρ c (Proc.devRef .tc main_v20) = Cert.ReferenceIdeal.Read.val_main_v22 (F := Ideal) (m ((c : Thread nD τ).loc main_arg2)) := by
  show StableHlo.after hostOps0 (W0 m ρ c) (Proc.devRef .tc main_v20) = _
  after_results
  rfl
theorem W1_v21 : W1 m ρ c (Proc.devRef .tc main_v21) = Cert.ReferenceIdeal.Read.val_main_v27 (F := Ideal) (m ((c : Thread nD τ).loc main_arg4)) := by
  show StableHlo.after hostOps0 (W0 m ρ c) (Proc.devRef .tc main_v21) = _
  after_results
  rfl
theorem W1_v22 : W1 m ρ c (Proc.devRef .tc main_v22) = Cert.ReferenceIdeal.Read.val_main_v49 (F := Ideal) (m ((c : Thread nD τ).loc main_arg5)) := by
  show StableHlo.after hostOps0 (W0 m ρ c) (Proc.devRef .tc main_v22) = _
  after_results
  rfl
theorem W1_v23 : W1 m ρ c (Proc.devRef .tc main_v23) = Cert.ReferenceIdeal.Read.val_main_v54 (F := Ideal) (m ((c : Thread nD τ).loc main_arg7)) := by
  show StableHlo.after hostOps0 (W0 m ρ c) (Proc.devRef .tc main_v23) = _
  after_results
  rfl

/-- The first bias with a unit axis added: entry `(0, j)` is entry `j` of the bias. -/
theorem W1_v24 (j : Fin 128) : W1 m ρ c (Proc.devRef .tc main_v24) (ValueIdx.ix2 (0 : Fin 1) j)
    = (m ((c : Thread nD τ).loc main_arg3)) (ValueIdx.ix1 j) := by
  show StableHlo.after hostOps0 (W0 m ρ c) (Proc.devRef .tc main_v24) _ = _
  after_results
  exact ValueIdx.shapeCast_a_1a_apply (m ((c : Thread nD τ).loc main_arg3)) shapeCasts_S128_S1x128 0 j

/-- The features are not written by the first stretch. -/
theorem W1_arg0 : W1 m ρ c (Proc.devRef .tc main_arg0) = (m ((c : Thread nD τ).loc main_arg0)) := by
  show StableHlo.after hostOps0 (W0 m ρ c) (Proc.devRef .tc main_arg0) = _
  after_results <;> rfl

/-- The second bias is not written by the first stretch. -/
theorem W1_arg6 : W1 m ρ c (Proc.devRef .tc main_arg6) = (m ((c : Thread nD τ).loc main_arg6)) := by
  show StableHlo.after hostOps0 (W0 m ρ c) (Proc.devRef .tc main_arg6) = _
  after_results <;> rfl

/-! ## Across the first fused region -/

/-- The index columns are not among the first region's arrays. -/
theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
/-- The second bias is not among the first region's arrays. -/
theorem W2_arg6 : W2 m ρ c (Proc.devRef .tc main_arg6) = (m ((c : Thread nD τ).loc main_arg6)) :=
  (W2_of_ne m ρ c main_arg6 (by decide)).trans (W1_arg6 m ρ c)
/-- The last transposed weight matrix is not among the first region's arrays. -/
theorem W2_v23 : W2 m ρ c (Proc.devRef .tc main_v23) = Cert.ReferenceIdeal.Read.val_main_v54 (F := Ideal) (m ((c : Thread nD τ).loc main_arg7)) :=
  (W2_of_ne m ρ c main_v23 (by decide)).trans (W1_v23 m ρ c)
/-- The neighbour count is an input of the first region, which leaves its inputs as entered. -/
theorem W2_v7 : W2 m ρ c (Proc.devRef .tc main_v7) = Cert.ReferenceIdeal.Read.val_main_v17 (F := Ideal) (m ((c : Thread nD τ).loc main_arg1)) :=
  ((W2_arr m ρ c 2).trans (((dat0 (V1 m ρ) c).arrAt_in 2 rfl _).trans (A_eq0 (V1 m ρ) c 2))).trans (W1_v7 m ρ c)

/-! ## The second stretch -/

set_option maxHeartbeats 800000 in
/-- The second layer's neighbourhood sum: the array the first region left, gathered along the wrapped
source column and scatter-added onto zeros along the destination column. -/
theorem W3_v36 : W3 m ρ c (Proc.devRef .tc main_v36)
    = Host.scatterAdd (F := Ideal) (φ := .f32) Cert.ReferenceIdeal.scatter_S100000x64_S1280000x1_S1280000x64_1_0_0_1
        (Cert.ReferenceIdeal.Read.val_main_v11 (F := Ideal)) (Cert.ReferenceIdeal.Read.val_main_v12 (F := Ideal) (m ((c : Thread nD τ).loc main_arg1)))
        (Host.gather Cert.ReferenceIdeal.gather_S100000x64_S1280000x1_S1280000x64_1_0_n_n_0_1_164
          (W2 m ρ c (Proc.devRef .tc main_v25_1)) (Cert.ReferenceIdeal.Read.val_main_v9 (F := Ideal) (m ((c : Thread nD τ).loc main_arg1)))) := by
  show StableHlo.after hostOps1 (W2 m ρ c) (Proc.devRef .tc main_v36) = _
  after_results
  rw [W2_v1, W2_v3]
  generalize W2 m ρ c (Proc.devRef .tc main_v25_1) = T
  unfold Cert.ReferenceIdeal.Read.val_main_v12 Cert.ReferenceIdeal.Read.val_main_v11 Cert.ReferenceIdeal.Read.val_main_v9
    Cert.ReferenceIdeal.Read.val_main_v8 Cert.ReferenceIdeal.Read.val_main_v7 Cert.ReferenceIdeal.Read.val_main_v6 Cert.ReferenceIdeal.Read.val_main_v5 Cert.ReferenceIdeal.Read.val_main_v4
    Cert.ReferenceIdeal.Read.val_main_c Cert.ReferenceIdeal.Read.val_main_c_0 Cert.ReferenceIdeal.Read.val_main_cst
  rfl

/-- The second bias with a unit axis added: entry `(0, o)` is entry `o` of the bias. -/
theorem W3_v37 (o : Fin 64) : W3 m ρ c (Proc.devRef .tc main_v37) (ValueIdx.ix2 (0 : Fin 1) o)
    = (m ((c : Thread nD τ).loc main_arg6)) (ValueIdx.ix1 o) := by
  show StableHlo.after hostOps1 (W2 m ρ c) (Proc.devRef .tc main_v37) _ = _
  after_results
  rw [W2_arg6]
  exact ValueIdx.shapeCast_a_1a_apply (m ((c : Thread nD τ).loc main_arg6)) shapeCasts_S64_S1x64 0 o

/-- The second stretch writes neither result of the first region, nor the neighbour count, nor the
last transposed weight matrix. -/
theorem W3_v25_0 : W3 m ρ c (Proc.devRef .tc main_v25_0) = W2 m ρ c (Proc.devRef .tc main_v25_0) := by
  show StableHlo.after hostOps1 (W2 m ρ c) (Proc.devRef .tc main_v25_0) = _
  after_results <;> rfl
theorem W3_v7 : W3 m ρ c (Proc.devRef .tc main_v7) = Cert.ReferenceIdeal.Read.val_main_v17 (F := Ideal) (m ((c : Thread nD τ).loc main_arg1)) := by
  refine Eq.trans ?_ (W2_v7 m ρ c)
  show StableHlo.after hostOps1 (W2 m ρ c) (Proc.devRef .tc main_v7) = _
  after_results <;> rfl
theorem W3_v23 : W3 m ρ c (Proc.devRef .tc main_v23) = Cert.ReferenceIdeal.Read.val_main_v54 (F := Ideal) (m ((c : Thread nD τ).loc main_arg7)) := by
  refine Eq.trans ?_ (W2_v23 m ρ c)
  show StableHlo.after hostOps1 (W2 m ρ c) (Proc.devRef .tc main_v23) = _
  after_results <;> rfl

end Cert.KernelIdeal.HostValue
-- ==== Proof.LibPlainDot.lean ====
/-
  A plain matrix product read at an index, at the ideal values.

  The dimension numbers `DotDims.plain M K N` contract the second axis of an `M × K` left operand with the first axis of a
  `K × N` right operand. At the ideal instance a `tpu.matmul` with these numbers into the zero accumulator, and the
  host's `dot_general` with the same numbers, are both — at the result index `(p, q)` — the finite sum over `k : Fin K`
  of `lhs (p, k) * rhs (k, q)` on the extended reals. Nothing is assumed of `M`, `K`, `N` or of the operands' formats.

  The proof names the two operand indices coordinate by coordinate (`lhsIdx_plain`, `rhsIdx_plain`: a batch-free,
  single-contraction record sends `(p, q)` and `k` to `(p, k)` and `(k, q)`) and re-indexes the one-axis contraction shape
  by its coordinate.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : Nat)

/-- The one-axis contraction shape of a plain product, identified with `Fin K`. -/
abbrev contrFin : (DotDims.plain M K N).contr.Idx ≃ Fin K := contrEquiv1 (DotDims.plain M K N) K rfl rfl

/-- The left operand's index at result index `(p, q)` and contraction coordinate `k` is `(p, k)`. -/
theorem lhsIdx_plain (p : Fin M) (q : Fin N) (k : Fin K) :
    (DotDims.plain M K N).lhsIdx (ix2 p q) ((contrFin M K N).symm k) = ix2 p k := by
  funext a
  apply Fin.ext
  match a with
  | ⟨0, _⟩ =>
    show ((DotDims.plain M K N).lhsIdx (ix2 p q) ((contrFin M K N).symm k) (0 : Fin 2)).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    show ((DotDims.plain M K N).lhsIdx (ix2 p q) ((contrFin M K N).symm k) (1 : Fin 2)).val = k.val
    exact ((DotDims.plain M K N).lhsIdx_val_of_single rfl _ _).trans
      (contrEquiv1_symm_val (DotDims.plain M K N) K rfl rfl k)

/-- The right operand's index at result index `(p, q)` and contraction coordinate `k` is `(k, q)`. -/
theorem rhsIdx_plain (p : Fin M) (q : Fin N) (k : Fin K) :
    (DotDims.plain M K N).rhsIdx (ix2 p q) ((contrFin M K N).symm k) = ix2 k q := by
  funext a
  apply Fin.ext
  match a with
  | ⟨0, _⟩ =>
    show ((DotDims.plain M K N).rhsIdx (ix2 p q) ((contrFin M K N).symm k) (0 : Fin 2)).val = k.val
    exact ((DotDims.plain M K N).rhsIdx_val_of_single rfl _ _).trans
      (contrEquiv1_symm_val (DotDims.plain M K N) K rfl rfl k)
  | ⟨1, _⟩ =>
    show ((DotDims.plain M K N).rhsIdx (ix2 p q) ((contrFin M K N).symm k) (1 : Fin 2)).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)`, over `Fin K`. -/
theorem sum_plain (lhs : (⟨2, ![M, K]⟩ : Shape).Idx → EReal) (rhs : (⟨2, ![K, N]⟩ : Shape).Idx → EReal) (p : Fin M) (q : Fin N) :
    (∑ c : (DotDims.plain M K N).contr.Idx,
        lhs ((DotDims.plain M K N).lhsIdx (ix2 p q) c) * rhs ((DotDims.plain M K N).rhsIdx (ix2 p q) c))
      = ∑ k : Fin K, lhs (ix2 p k) * rhs (ix2 k q) := by
  rw [← Equiv.sum_comp (contrFin M K N).symm]
  exact Finset.sum_congr rfl fun k _ => by rw [lhsIdx_plain, rhsIdx_plain]

/-- A `tpu.matmul` with plain dimension numbers into the zero accumulator, at the ideal values, read at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain M K N lhs rhs p q)

/-- The host's `dot_general` with plain dimension numbers, at the ideal values, read at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain M K N lhs rhs p q)

end Cert.Lib.PlainDot

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KernelPayload.lean ====
/-
  The three bodies' arithmetic read at one element, at the ideal values.

  Layer 1's body forms, for a row r of its block, the mean of the aggregated features (the aggregate divided by the
  neighbour count, the count raised to at least one), multiplies it by the first weight matrix, adds the row's own
  features times the second weight matrix and the bias, and keeps the positive part. Its second result pushes that hidden
  row through the third weight matrix. Layer 2's body divides its aggregate by the same raised count and adds the hidden
  row times the fourth weight matrix and the bias. A change of float format is the identity on the extended reals, a
  matrix product into the zero accumulator is the plain finite sum, a column broadcast reads the row's one entry and a
  row broadcast the column's one entry.
-/
import proofs.«127070_j7172595384376_2_alg».proof.Proof.Gen.KernelIdeal.Skeleton
import proofs.«127070_j7172595384376_2_alg».proof.Proof.LibPlainDot
import proofs.«127070_j7172595384376_2_alg».proof.Proof.LibColumnLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The word of the float one denotes the real number one. -/
theorem one_eq : Ideal.ofBits .f32 0x3F800000#32 = 1 := by
  simp [Ideal.ofBits, Ideal.ieee]
  rw [← EReal.coe_mul, ← EReal.coe_one]
  congr 1
  norm_num

/-- The product of a 5000-row block of width 64 with a 64 × 128 matrix is a plain product. -/
theorem dotA_eq : dot_S5000x64_S64x128_S5000x128_1_0_0_1_n_n = DotDims.plain 5000 64 128 := rfl

/-- The product of a 5000-row block of width 128 with a 128 × 64 matrix is a plain product. -/
theorem dotB_eq : dot_S5000x128_S128x64_S5000x64_1_0_0_1_n_n = DotDims.plain 5000 128 64 := rfl

/-- Layer 1's hidden row at column j: the positive part of mean · W + x · W' + b. -/
theorem k0_pay1_apply (v0 : Vec Ideal S5000x1 .f32) (v4 : Vec Ideal S5000x64 .f32) (v9 : Vec Ideal S5000x64 .f32)
    (v11 : Vec Ideal S64x128 .f32) (v14 : Vec Ideal S64x128 .f32) (v20 : Vec Ideal S1x128 .f32) (r : Fin 5000) (j : Fin 128) :
    k0_pay1 (F := Ideal) v0 v4 v9 v11 v14 v20 (ix2 r j)
      = max (((∑ k : Fin 64, Ideal.div (v4 (ix2 r k)) (max (v0 (ix2 r 0)) (Ideal.ofBits .f32 0x3F800000#32)) * v11 (ix2 k j))
          + ∑ k : Fin 64, v9 (ix2 r k) * v14 (ix2 k j)) + v20 (ix2 0 j)) (Ideal.ofBits .f32 0x00000000#32) := by
  unfold k0_pay1
  simp only [shapeCast_self]
  simp only [maximumf_apply, addf_apply]
  rw [broadcastTo_1b_ab_apply, dotA_eq]
  simp only [matmul]
  rw [Cert.Lib.PlainDot.matmul_zero_apply, Cert.Lib.PlainDot.matmul_zero_apply]
  simp only [truncf_apply, divf_apply, Idealize.ShloMosaic.ColumnLayout.broadcastTo_a1_ab_apply]
  rfl

/-- Layer 1's second result at column o: the hidden row times the third weight matrix. -/
theorem k0_pay2_apply (v0 : Vec Ideal S5000x1 .f32) (v4 : Vec Ideal S5000x64 .f32) (v9 : Vec Ideal S5000x64 .f32)
    (v11 : Vec Ideal S64x128 .f32) (v14 : Vec Ideal S64x128 .f32) (v20 : Vec Ideal S1x128 .f32) (v28 : Vec Ideal S128x64 .f32)
    (r : Fin 5000) (o : Fin 64) :
    k0_pay2 (F := Ideal) v0 v4 v9 v11 v14 v20 v28 (ix2 r o)
      = ∑ j : Fin 128, k0_pay1 (F := Ideal) v0 v4 v9 v11 v14 v20 (ix2 r j) * v28 (ix2 j o) := by
  unfold k0_pay2
  simp only [shapeCast_self]
  simp only [truncf_apply]
  rw [dotB_eq]
  simp only [matmul]
  rw [Cert.Lib.PlainDot.matmul_zero_apply]
  rfl

/-- Layer 2's row at column q: the aggregate over the raised count, plus the hidden row times the fourth weight matrix,
    plus the bias. -/
theorem k1_pay1_apply (v0 : Vec Ideal S5000x1 .f32) (v4 : Vec Ideal S5000x64 .f32) (v8 : Vec Ideal S5000x128 .f32)
    (v11 : Vec Ideal S128x64 .f32) (v16 : Vec Ideal S1x64 .f32) (r : Fin 5000) (q : Fin 64) :
    k1_pay1 (F := Ideal) v0 v4 v8 v11 v16 (ix2 r q)
      = (Ideal.div (v4 (ix2 r q)) (max (v0 (ix2 r 0)) (Ideal.ofBits .f32 0x3F800000#32))
          + ∑ k : Fin 128, v8 (ix2 r k) * v11 (ix2 k q)) + v16 (ix2 0 q) := by
  unfold k1_pay1
  simp only [shapeCast_self]
  simp only [addf_apply, divf_apply]
  rw [Idealize.ShloMosaic.ColumnLayout.broadcastTo_a1_ab_apply, broadcastTo_1b_ab_apply, dotB_eq]
  simp only [matmul]
  rw [Cert.Lib.PlainDot.matmul_zero_apply]
  rfl

end Cert.KernelIdeal.Payload

end
-- ==== Proof.KernelBlocks.lean ====
/-
  From blocks to whole arrays, for both grid regions of the idealized kernel, at the ideal values.

  Each region walks twenty grid points; point t reads rows 5000 t … 5000 t + 4999 of the row-tiled arrays (the aggregate,
  the features or hidden rows, the neighbour count) and the whole of each weight or bias array, and writes back the same
  rows of its results. So what a point writes back is the restriction to its rows of ONE function of the whole arrays
  as the region finds them; the blocks tile each result array; hence the result arrays after a region are those
  functions. Everything is stated for arbitrary contents V at the region's entry.
-/
import proofs.«127070_j7172595384376_2_alg».proof.Proof.Gen.KernelIdeal.Frame
import proofs.«127070_j7172595384376_2_alg».proof.Proof.KernelPayload

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Layer 2 (the second grid region) -/

/-- Layer 2 as one function of whole arrays: at node i and column q, the aggregate over the raised neighbour count, plus
    the node's hidden row times the weight matrix, plus the bias. -/
def G1 (agg : S100000x64.Idx → Elt Ideal .f32) (hid : S100000x128.Idx → Elt Ideal .f32) (cnt : S100000x1.Idx → Elt Ideal .f32)
    (w : S128x64.Idx → Elt Ideal .f32) (b : S1x64.Idx → Elt Ideal .f32) : S100000x64.Idx → Elt Ideal .f32 :=
  fun i => (Ideal.div (agg i) (max (cnt (ix2 (i 0) 0)) (Ideal.ofBits .f32 0x3F800000#32))
    + ∑ k : Fin 128, hid (ix2 (i 0) k) * w (ix2 k (i 1))) + b (ix2 0 (i 1))

/-- The body's row, from blocks that agree with the whole arrays where the row reads them. -/
theorem k1_block_eq (x2 : Vec Ideal S5000x1 .f32) (x0 : Vec Ideal S5000x64 .f32) (x1 : Vec Ideal S5000x128 .f32)
    (x3 : Vec Ideal S128x64 .f32) (x4 : Vec Ideal S1x64 .f32)
    (agg : S100000x64.Idx → Elt Ideal .f32) (hid : S100000x128.Idx → Elt Ideal .f32) (cnt : S100000x1.Idx → Elt Ideal .f32)
    (w : S128x64.Idx → Elt Ideal .f32) (b : S1x64.Idx → Elt Ideal .f32)
    (j : S5000x64.Idx) (i : S100000x64.Idx)
    (e0 : x0 (ix2 (j 0) (j 1)) = agg i)
    (e2 : x2 (ix2 (j 0) 0) = cnt (ix2 (i 0) 0))
    (e1 : ∀ k : Fin 128, x1 (ix2 (j 0) k) = hid (ix2 (i 0) k))
    (e3 : ∀ k : Fin 128, x3 (ix2 k (j 1)) = w (ix2 k (i 1)))
    (e4 : x4 (ix2 0 (j 1)) = b (ix2 0 (i 1))) :
    k1_pay1 (F := Ideal) x2 x0 x1 x3 x4 j = G1 agg hid cnt w b i := by
  obtain ⟨r, q, rfl⟩ : ∃ (r : Fin 5000) (q : Fin 64), j = ix2 r q := ⟨j 0, j 1, eq_ix2 j⟩
  have e0' : x0 (ix2 r q) = agg i := e0
  have e2' : x2 (ix2 r 0) = cnt (ix2 (i 0) 0) := e2
  have e1' : ∀ k : Fin 128, x1 (ix2 r k) = hid (ix2 (i 0) k) := e1
  have e3' : ∀ k : Fin 128, x3 (ix2 k q) = w (ix2 k (i 1)) := e3
  have e4' : x4 (ix2 0 q) = b (ix2 0 (i 1)) := e4
  rw [Payload.k1_pay1_apply]
  unfold G1
  simp only [e0', e2', e1', e3', e4']

/-- The printed index maps of layer 2, decided over its twenty grid points. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every block of rows is some grid point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- What grid point t writes back is block t of layer 2 of the arrays as the region finds them. -/
theorem flushed1_eq (c : Dev nD) (t : Fin cfg1.N) :
    (dat1 V c).flushed 5 t = ((cfg1.win 5).blk t).view.read (Elt Ideal)
      (G1 (V c main_v36) (V c main_v25_0) (V c main_v7) (V c main_v23) (V c main_v37)) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x64) hz, View.ld_unit_zero (S := S5000x128) hz,
    View.ld_unit_zero (S := S128x64) hz, View.ld_unit_zero (S := S1x64) hz]
  obtain ⟨f0, f1, f2, f3, f4, f5, f6, f7, f8, f9, f10, f11⟩ := idx_facts1 t
  funext j
  show k1_pay1 (F := Ideal) (iblk1 V c 2 t) (iblk1 V c 0 t) (iblk1 V c 1 t) (iblk1 V c 3 t) (iblk1 V c 4 t) j
    = G1 (V c main_v36) (V c main_v25_0) (V c main_v7) (V c main_v23) (V c main_v37) (((cfg1.win 5).blk t).view.emb j)
  refine k1_block_eq (iblk1 V c 2 t) (iblk1 V c 0 t) (iblk1 V c 1 t) (iblk1 V c 3 t) (iblk1 V c 4 t)
    (V c main_v36) (V c main_v25_0) (V c main_v7) (V c main_v23) (V c main_v37) j (((cfg1.win 5).blk t).view.emb j) ?_ ?_ ?_ ?_ ?_
  · show V c main_v36 (((cfg1.win 0).blk t).view.emb (ix2 (j 0) (j 1))) = V c main_v36 (((cfg1.win 5).blk t).view.emb j)
    have h : ((cfg1.win 0).blk t).view.emb (ix2 (j 0) (j 1)) = ((cfg1.win 5).blk t).view.emb j := by
      funext a; apply Fin.ext
      match a with
      | ⟨0, _⟩ => show win1_0.index t (0 : Fin 2) * 5000 + 1 * (j 0).val = win1_5.index t (0 : Fin 2) * 5000 + 1 * (j 0).val; omega
      | ⟨1, _⟩ => show win1_0.index t (1 : Fin 2) * 64 + 1 * (j 1).val = win1_5.index t (1 : Fin 2) * 64 + 1 * (j 1).val; omega
    rw [h]
    try rfl
  · show V c main_v7 (((cfg1.win 2).blk t).view.emb (ix2 (j 0) (0 : Fin 1))) = V c main_v7 (ix2 ((((cfg1.win 5).blk t).view.emb j) 0) (0 : Fin 1) : S100000x1.Idx)
    have h : ((cfg1.win 2).blk t).view.emb (ix2 (j 0) (0 : Fin 1)) = (ix2 ((((cfg1.win 5).blk t).view.emb j) 0) (0 : Fin 1) : S100000x1.Idx) := by
      funext a; apply Fin.ext
      match a with
      | ⟨0, _⟩ => show win1_2.index t (0 : Fin 2) * 5000 + 1 * (j 0).val = win1_5.index t (0 : Fin 2) * 5000 + 1 * (j 0).val; omega
      | ⟨1, _⟩ => show win1_2.index t (1 : Fin 2) * 1 + 1 * 0 = 0; omega
    rw [h]
    try rfl
  · intro k
    show V c main_v25_0 (((cfg1.win 1).blk t).view.emb (ix2 (j 0) k)) = V c main_v25_0 (ix2 ((((cfg1.win 5).blk t).view.emb j) 0) k)
    have h : ((cfg1.win 1).blk t).view.emb (ix2 (j 0) k) = (ix2 ((((cfg1.win 5).blk t).view.emb j) 0) k : S100000x128.Idx) := by
      funext a; apply Fin.ext
      match a with
      | ⟨0, _⟩ => show win1_1.index t (0 : Fin 2) * 5000 + 1 * (j 0).val = win1_5.index t (0 : Fin 2) * 5000 + 1 * (j 0).val; omega
      | ⟨1, _⟩ => show win1_1.index t (1 : Fin 2) * 128 + 1 * k.val = k.val; omega
    rw [h]
    try rfl
  · intro k
    show V c main_v23 (((cfg1.win 3).blk t).view.emb (ix2 k (j 1))) = V c main_v23 (ix2 k ((((cfg1.win 5).blk t).view.emb j) 1))
    have h : ((cfg1.win 3).blk t).view.emb (ix2 k (j 1)) = (ix2 k ((((cfg1.win 5).blk t).view.emb j) 1) : S128x64.Idx) := by
      funext a; apply Fin.ext
      match a with
      | ⟨0, _⟩ => show win1_3.index t (0 : Fin 2) * 128 + 1 * k.val = k.val; omega
      | ⟨1, _⟩ => show win1_3.index t (1 : Fin 2) * 64 + 1 * (j 1).val = win1_5.index t (1 : Fin 2) * 64 + 1 * (j 1).val; omega
    rw [h]
    try rfl
  · show V c main_v37 (((cfg1.win 4).blk t).view.emb (ix2 0 (j 1))) = V c main_v37 (ix2 0 ((((cfg1.win 5).blk t).view.emb j) 1))
    have h : ((cfg1.win 4).blk t).view.emb (ix2 (0 : Fin 1) (j 1)) = (ix2 (0 : Fin 1) ((((cfg1.win 5).blk t).view.emb j) 1) : S1x64.Idx) := by
      funext a; apply Fin.ext
      match a with
      | ⟨0, _⟩ => show win1_4.index t (0 : Fin 2) * 1 + 1 * 0 = 0; omega
      | ⟨1, _⟩ => show win1_4.index t (1 : Fin 2) * 64 + 1 * (j 1).val = win1_5.index t (1 : Fin 2) * 64 + 1 * (j 1).val; omega
    rw [h]
    try rfl

/-- An index of the result array is in grid point t's block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v38).slice (win1_5.rect t)).set ↔ _
  rw [View.set_slice_whole, Rect.mem_set_unit]
  exact Iff.rfl

/-- The twenty blocks of 5000 rows tile the result array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The result array after layer 2's region: layer 2 of the arrays as the region finds them. -/
theorem final1 (c : Dev nD) : (dat1 V c).arrAt 5 cfg1.N
    = G1 (V c main_v36) (V c main_v25_0) (V c main_v7) (V c main_v23) (V c main_v37) :=
  (dat1 V c).arrAt_eq_of_cover 5 _ (fun t _ => flushed1_eq V c t) cover1

/-! ## Layer 1 (the first grid region) -/

/-- Layer 1's hidden array as one function of whole arrays: at node i and column j, the positive part of the mean of
    the aggregate (over the raised neighbour count) times the neighbour weights, plus the node's own features times the
    root weights, plus the bias. -/
def G0h (agg : S100000x64.Idx → Elt Ideal .f32) (x : S100000x64.Idx → Elt Ideal .f32) (cnt : S100000x1.Idx → Elt Ideal .f32)
    (wl : S64x128.Idx → Elt Ideal .f32) (b : S1x128.Idx → Elt Ideal .f32) (wr : S64x128.Idx → Elt Ideal .f32) :
    S100000x128.Idx → Elt Ideal .f32 :=
  fun i => max (((∑ k : Fin 64, Ideal.div (agg (ix2 (i 0) k)) (max (cnt (ix2 (i 0) 0)) (Ideal.ofBits .f32 0x3F800000#32)) * wl (ix2 k (i 1)))
    + ∑ k : Fin 64, x (ix2 (i 0) k) * wr (ix2 k (i 1))) + b (ix2 0 (i 1))) (Ideal.ofBits .f32 0x00000000#32)

/-- Layer 1's second result as one function of whole arrays: the hidden row times the second layer's neighbour weights. -/
def G0t (agg : S100000x64.Idx → Elt Ideal .f32) (x : S100000x64.Idx → Elt Ideal .f32) (cnt : S100000x1.Idx → Elt Ideal .f32)
    (wl : S64x128.Idx → Elt Ideal .f32) (b : S1x128.Idx → Elt Ideal .f32) (wr : S64x128.Idx → Elt Ideal .f32)
    (w2 : S128x64.Idx → Elt Ideal .f32) : S100000x64.Idx → Elt Ideal .bf16 :=
  fun i => ∑ j : Fin 128, G0h agg x cnt wl b wr (ix2 (i 0) j) * w2 (ix2 j (i 1))

/-- The body's hidden row, from blocks that agree with the whole arrays where the row reads them. -/
theorem k0_block7_eq (x2 : Vec Ideal S5000x1 .f32) (x0 : Vec Ideal S5000x64 .f32) (x1 : Vec Ideal S5000x64 .f32)
    (x3 : Vec Ideal S64x128 .f32) (x5 : Vec Ideal S64x128 .f32) (x4 : Vec Ideal S1x128 .f32)
    (agg : S100000x64.Idx → Elt Ideal .f32) (x : S100000x64.Idx → Elt Ideal .f32) (cnt : S100000x1.Idx → Elt Ideal .f32)
    (wl : S64x128.Idx → Elt Ideal .f32) (b : S1x128.Idx → Elt Ideal .f32) (wr : S64x128.Idx → Elt Ideal .f32)
    (j : S5000x128.Idx) (i : S100000x128.Idx)
    (e0 : ∀ k : Fin 64, x0 (ix2 (j 0) k) = agg (ix2 (i 0) k))
    (e1 : ∀ k : Fin 64, x1 (ix2 (j 0) k) = x (ix2 (i 0) k))
    (e2 : x2 (ix2 (j 0) 0) = cnt (ix2 (i 0) 0))
    (e3 : ∀ k : Fin 64, x3 (ix2 k (j 1)) = wl (ix2 k (i 1)))
    (e5 : ∀ k : Fin 64, x5 (ix2 k (j 1)) = wr (ix2 k (i 1)))
    (e4 : x4 (ix2 0 (j 1)) = b (ix2 0 (i 1))) :
    k0_pay1 (F := Ideal) x2 x0 x1 x3 x5 x4 j = G0h agg x cnt wl b wr i := by
  obtain ⟨r, q, rfl⟩ : ∃ (r : Fin 5000) (q : Fin 128), j = ix2 r q := ⟨j 0, j 1, eq_ix2 j⟩
  have e0' : ∀ k : Fin 64, x0 (ix2 r k) = agg (ix2 (i 0) k) := e0
  have e1' : ∀ k : Fin 64, x1 (ix2 r k) = x (ix2 (i 0) k) := e1
  have e2' : x2 (ix2 r 0) = cnt (ix2 (i 0) 0) := e2
  have e3' : ∀ k : Fin 64, x3 (ix2 k q) = wl (ix2 k (i 1)) := e3
  have e5' : ∀ k : Fin 64, x5 (ix2 k q) = wr (ix2 k (i 1)) := e5
  have e4' : x4 (ix2 0 q) = b (ix2 0 (i 1)) := e4
  rw [Payload.k0_pay1_apply]
  unfold G0h
  simp only [e0', e1', e2', e3', e5', e4']

/-- The body's second result, from blocks that agree with the whole arrays where the row reads them. -/
theorem k0_block8_eq (x2 : Vec Ideal S5000x1 .f32) (x0 : Vec Ideal S5000x64 .f32) (x1 : Vec Ideal S5000x64 .f32)
    (x3 : Vec Ideal S64x128 .f32) (x5 : Vec Ideal S64x128 .f32) (x4 : Vec Ideal S1x128 .f32) (x6 : Vec Ideal S128x64 .f32)
    (agg : S100000x64.Idx → Elt Ideal .f32) (x : S100000x64.Idx → Elt Ideal .f32) (cnt : S100000x1.Idx → Elt Ideal .f32)
    (wl : S64x128.Idx → Elt Ideal .f32) (b : S1x128.Idx → Elt Ideal .f32) (wr : S64x128.Idx → Elt Ideal .f32)
    (w2 : S128x64.Idx → Elt Ideal .f32)
    (j : S5000x64.Idx) (i : S100000x64.Idx)
    (e0 : ∀ k : Fin 64, x0 (ix2 (j 0) k) = agg (ix2 (i 0) k))
    (e1 : ∀ k : Fin 64, x1 (ix2 (j 0) k) = x (ix2 (i 0) k))
    (e2 : x2 (ix2 (j 0) 0) = cnt (ix2 (i 0) 0))
    (e3 : ∀ (k : Fin 64) (j' : Fin 128), x3 (ix2 k j') = wl (ix2 k j'))
    (e5 : ∀ (k : Fin 64) (j' : Fin 128), x5 (ix2 k j') = wr (ix2 k j'))
    (e4 : ∀ j' : Fin 128, x4 (ix2 0 j') = b (ix2 0 j'))
    (e6 : ∀ j' : Fin 128, x6 (ix2 j' (j 1)) = w2 (ix2 j' (i 1))) :
    k0_pay2 (F := Ideal) x2 x0 x1 x3 x5 x4 x6 j = G0t agg x cnt wl b wr w2 i := by
  obtain ⟨r, q, rfl⟩ : ∃ (r : Fin 5000) (q : Fin 64), j = ix2 r q := ⟨j 0, j 1, eq_ix2 j⟩
  have e6' : ∀ j' : Fin 128, x6 (ix2 j' q) = w2 (ix2 j' (i 1)) := e6
  rw [Payload.k0_pay2_apply]
  unfold G0t
  refine Finset.sum_congr rfl fun j' _ => ?_
  rw [e6', k0_block7_eq x2 x0 x1 x3 x5 x4 agg x cnt wl b wr (ix2 r j') (ix2 (i 0) j') e0 e1 e2
    (fun k => e3 k j') (fun k => e5 k j') (e4 j')]

/-- The printed index maps of layer 1, decided over its twenty grid points. -/
theorem idx_facts0 : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0
    ∧ win0_8.index t (0 : Fin 2) = win0_7.index t (0 : Fin 2) ∧ win0_8.index t (1 : Fin 2) = 0 :=
  (by decide +kernel : ∀ t : Fin grid0.N, _)

/-- Every block of rows of the hidden array is some grid point's. -/
theorem idx_onto0_7 : ∀ q0 : Fin 20, ∃ t : Fin cfg0.N, win0_7.index t = ![q0.val, 0] :=
  (by decide +kernel : ∀ q0 : Fin 20, ∃ t : Fin grid0.N, win0_7.index t = ![q0.val, 0])

/-- Every block of rows of the second result is some grid point's. -/
theorem idx_onto0_8 : ∀ q0 : Fin 20, ∃ t : Fin cfg0.N, win0_8.index t = ![q0.val, 0] :=
  (by decide +kernel : ∀ q0 : Fin 20, ∃ t : Fin grid0.N, win0_8.index t = ![q0.val, 0])

/-- What grid point t writes back to the hidden array is block t of layer 1 of the arrays as the region finds them. -/
theorem flushed0_7_eq (c : Dev nD) (t : Fin cfg0.N) :
    (dat0 V c).flushed 7 t = ((cfg0.win 7).blk t).view.read (Elt Ideal)
      (G0h (V c main_v19) (V c main_arg0) (V c main_v7) (V c main_v20) (V c main_v24) (V c main_v21)) := by
  show (cfg0.win 7).cut (grid0.coords t) ((dat0 V c).after 7 t) = _
  rw [after0_7]
  unfold out0_7
  rw [View.canon_unit_zero hz]
  simp only [View.ld_unit_zero (S := S5000x1) hz, View.ld_unit_zero (S := S5000x64) hz,
    View.ld_unit_zero (S := S64x128) hz, View.ld_unit_zero (S := S1x128) hz]
  obtain ⟨f0, f1, f2, f3, f4, f5, f6, f7, f8, f9, f10, f11, f12, f13, f14, f15, f16⟩ := idx_facts0 t
  funext j
  show k0_pay1 (F := Ideal) (iblk0 V c 2 t) (iblk0 V c 0 t) (iblk0 V c 1 t) (iblk0 V c 3 t) (iblk0 V c 5 t) (iblk0 V c 4 t) j
    = G0h (V c main_v19) (V c main_arg0) (V c main_v7) (V c main_v20) (V c main_v24) (V c main_v21) (((cfg0.win 7).blk t).view.emb j)
  refine k0_block7_eq (iblk0 V c 2 t) (iblk0 V c 0 t) (iblk0 V c 1 t) (iblk0 V c 3 t) (iblk0 V c 5 t) (iblk0 V c 4 t)
    (V c main_v19) (V c main_arg0) (V c main_v7) (V c main_v20) (V c main_v24) (V c main_v21) j (((cfg0.win 7).blk t).view.emb j) ?_ ?_ ?_ ?_ ?_ ?_
  · intro k
    show V c main_v19 (((cfg0.win 0).blk t).view.emb (ix2 (j 0) k)) = V c main_v19 (ix2 ((((cfg0.win 7).blk t).view.emb j) 0) k : S100000x64.Idx)
    have h : ((cfg0.win 0).blk t).view.emb (ix2 (j 0) k) = (ix2 ((((cfg0.win 7).blk t).view.emb j) 0) k : S100000x64.Idx) := by
      funext a; apply Fin.ext
      match a with
      | ⟨0, _⟩ => show win0_0.index t (0 : Fin 2) * 5000 + 1 * (j 0).val = win0_7.index t (0 : Fin 2) * 5000 + 1 * (j 0).val; omega
      | ⟨1, _⟩ => show win0_0.index t (1 : Fin 2) * 64 + 1 * k.val = k.val; omega
    rw [h]
    try rfl
  · intro k
    show V c main_arg0 (((cfg0.win 1).blk t).view.emb (ix2 (j 0) k)) = V c main_arg0 (ix2 ((((cfg0.win 7).blk t).view.emb j) 0) k : S100000x64.Idx)
    have h : ((cfg0.win 1).blk t).view.emb (ix2 (j 0) k) = (ix2 ((((cfg0.win 7).blk t).view.emb j) 0) k : S100000x64.Idx) := by
      funext a; apply Fin.ext
      match a with
      | ⟨0, _⟩ => show win0_1.index t (0 : Fin 2) * 5000 + 1 * (j 0).val = win0_7.index t (0 : Fin 2) * 5000 + 1 * (j 0).val; omega
      | ⟨1, _⟩ => show win0_1.index t (1 : Fin 2) * 64 + 1 * k.val = k.val; omega
    rw [h]
    try rfl
  · show V c main_v7 (((cfg0.win 2).blk t).view.emb (ix2 (j 0) (0 : Fin 1))) = V c main_v7 (ix2 ((((cfg0.win 7).blk t).view.emb j) 0) (0 : Fin 1) : S100000x1.Idx)
    have h : ((cfg0.win 2).blk t).view.emb (ix2 (j 0) (0 : Fin 1)) = (ix2 ((((cfg0.win 7).blk t).view.emb j) 0) (0 : Fin 1) : S100000x1.Idx) := by
      funext a; apply Fin.ext
      match a with
      | ⟨0, _⟩ => show win0_2.index t (0 : Fin 2) * 5000 + 1 * (j 0).val = win0_7.index t (0 : Fin 2) * 5000 + 1 * (j 0).val; omega
      | ⟨1, _⟩ => show win0_2.index t (1 : Fin 2) * 1 + 1 * 0 = 0; omega
    rw [h]
    try rfl
  · intro k
    show V c main_v20 (((cfg0.win 3).blk t).view.emb (ix2 k (j 1))) = V c main_v20 (ix2 k ((((cfg0.win 7).blk t).view.emb j) 1) : S64x128.Idx)
    have h : ((cfg0.win 3).blk t).view.emb (ix2 k (j 1)) = (ix2 k ((((cfg0.win 7).blk t).view.emb j) 1) : S64x128.Idx) := by
      funext a; apply Fin.ext
      match a with
      | ⟨0, _⟩ => show win0_3.index t (0 : Fin 2) * 64 + 1 * k.val = k.val; omega
      | ⟨1, _⟩ => show win0_3.index t (1 : Fin 2) * 128 + 1 * (j 1).val = win0_7.index t (1 : Fin 2) * 128 + 1 * (j 1).val; omega
    rw [h]
    try rfl
  · intro k
    show V c main_v21 (((cfg0.win 5).blk t).view.emb (ix2 k (j 1))) = V c main_v21 (ix2 k ((((cfg0.win 7).blk t).view.emb j) 1) : S64x128.Idx)
    have h : ((cfg0.win 5).blk t).view.emb (ix2 k (j 1)) = (ix2 k ((((cfg0.win 7).blk t).view.emb j) 1) : S64x128.Idx) := by
      funext a; apply Fin.ext
      match a with
      | ⟨0, _⟩ => show win0_5.index t (0 : Fin 2) * 64 + 1 * k.val = k.val; omega
      | ⟨1, _⟩ => show win0_5.index t (1 : Fin 2) * 128 + 1 * (j 1).val = win0_7.index t (1 : Fin 2) * 128 + 1 * (j 1).val; omega
    rw [h]
    try rfl
  · show V c main_v24 (((cfg0.win 4).blk t).view.emb (ix2 (0 : Fin 1) (j 1))) = V c main_v24 (ix2 (0 : Fin 1) ((((cfg0.win 7).blk t).view.emb j) 1) : S1x128.Idx)
    have h : ((cfg0.win 4).blk t).view.emb (ix2 (0 : Fin 1) (j 1)) = (ix2 (0 : Fin 1) ((((cfg0.win 7).blk t).view.emb j) 1) : S1x128.Idx) := by
      funext a; apply Fin.ext
      match a with
      | ⟨0, _⟩ => show win0_4.index t (0 : Fin 2) * 1 + 1 * 0 = 0; omega
      | ⟨1, _⟩ => show win0_4.index t (1 : Fin 2) * 128 + 1 * (j 1).val = win0_7.index t (1 : Fin 2) * 128 + 1 * (j 1).val; omega
    rw [h]
    try rfl

/-- What grid point t writes back to the second result is block t of its whole-array function. -/
theorem flushed0_8_eq (c : Dev nD) (t : Fin cfg0.N) :
    (dat0 V c).flushed 8 t = ((cfg0.win 8).blk t).view.read (Elt Ideal)
      (G0t (V c main_v19) (V c main_arg0) (V c main_v7) (V c main_v20) (V c main_v24) (V c main_v21) (V c main_v22)) := by
  show (cfg0.win 8).cut (grid0.coords t) ((dat0 V c).after 8 t) = _
  rw [after0_8]
  unfold out0_8
  rw [View.canon_unit_zero hz]
  simp only [View.ld_unit_zero (S := S5000x1) hz, View.ld_unit_zero (S := S5000x64) hz,
    View.ld_unit_zero (S := S64x128) hz, View.ld_unit_zero (S := S1x128) hz, View.ld_unit_zero (S := S128x64) hz]
  obtain ⟨f0, f1, f2, f3, f4, f5, f6, f7, f8, f9, f10, f11, f12, f13, f14, f15, f16⟩ := idx_facts0 t
  funext j
  show k0_pay2 (F := Ideal) (iblk0 V c 2 t) (iblk0 V c 0 t) (iblk0 V c 1 t) (iblk0 V c 3 t) (iblk0 V c 5 t) (iblk0 V c 4 t) (iblk0 V c 6 t) j
    = G0t (V c main_v19) (V c main_arg0) (V c main_v7) (V c main_v20) (V c main_v24) (V c main_v21) (V c main_v22) (((cfg0.win 8).blk t).view.emb j)
  refine k0_block8_eq (iblk0 V c 2 t) (iblk0 V c 0 t) (iblk0 V c 1 t) (iblk0 V c 3 t) (iblk0 V c 5 t) (iblk0 V c 4 t) (iblk0 V c 6 t)
    (V c main_v19) (V c main_arg0) (V c main_v7) (V c main_v20) (V c main_v24) (V c main_v21) (V c main_v22) j (((cfg0.win 8).blk t).view.emb j) ?_ ?_ ?_ ?_ ?_ ?_ ?_
  · intro k
    show V c main_v19 (((cfg0.win 0).blk t).view.emb (ix2 (j 0) k)) = V c main_v19 (ix2 ((((cfg0.win 8).blk t).view.emb j) 0) k : S100000x64.Idx)
    have h : ((cfg0.win 0).blk t).view.emb (ix2 (j 0) k) = (ix2 ((((cfg0.win 8).blk t).view.emb j) 0) k : S100000x64.Idx) := by
      funext a; apply Fin.ext
      match a with
      | ⟨0, _⟩ => show win0_0.index t (0 : Fin 2) * 5000 + 1 * (j 0).val = win0_8.index t (0 : Fin 2) * 5000 + 1 * (j 0).val; omega
      | ⟨1, _⟩ => show win0_0.index t (1 : Fin 2) * 64 + 1 * k.val = k.val; omega
    rw [h]
    try rfl
  · intro k
    show V c main_arg0 (((cfg0.win 1).blk t).view.emb (ix2 (j 0) k)) = V c main_arg0 (ix2 ((((cfg0.win 8).blk t).view.emb j) 0) k : S100000x64.Idx)
    have h : ((cfg0.win 1).blk t).view.emb (ix2 (j 0) k) = (ix2 ((((cfg0.win 8).blk t).view.emb j) 0) k : S100000x64.Idx) := by
      funext a; apply Fin.ext
      match a with
      | ⟨0, _⟩ => show win0_1.index t (0 : Fin 2) * 5000 + 1 * (j 0).val = win0_8.index t (0 : Fin 2) * 5000 + 1 * (j 0).val; omega
      | ⟨1, _⟩ => show win0_1.index t (1 : Fin 2) * 64 + 1 * k.val = k.val; omega
    rw [h]
    try rfl
  · show V c main_v7 (((cfg0.win 2).blk t).view.emb (ix2 (j 0) (0 : Fin 1))) = V c main_v7 (ix2 ((((cfg0.win 8).blk t).view.emb j) 0) (0 : Fin 1) : S100000x1.Idx)
    have h : ((cfg0.win 2).blk t).view.emb (ix2 (j 0) (0 : Fin 1)) = (ix2 ((((cfg0.win 8).blk t).view.emb j) 0) (0 : Fin 1) : S100000x1.Idx) := by
      funext a; apply Fin.ext
      match a with
      | ⟨0, _⟩ => show win0_2.index t (0 : Fin 2) * 5000 + 1 * (j 0).val = win0_8.index t (0 : Fin 2) * 5000 + 1 * (j 0).val; omega
      | ⟨1, _⟩ => show win0_2.index t (1 : Fin 2) * 1 + 1 * 0 = 0; omega
    rw [h]
    try rfl
  · intro k j'
    show V c main_v20 (((cfg0.win 3).blk t).view.emb (ix2 k j')) = V c main_v20 (ix2 k j' : S64x128.Idx)
    have h : ((cfg0.win 3).blk t).view.emb (ix2 k j') = (ix2 k j' : S64x128.Idx) := by
      funext a; apply Fin.ext
      match a with
      | ⟨0, _⟩ => show win0_3.index t (0 : Fin 2) * 64 + 1 * k.val = k.val; omega
      | ⟨1, _⟩ => show win0_3.index t (1 : Fin 2) * 128 + 1 * j'.val = j'.val; omega
    rw [h]
    try rfl
  · intro k j'
    show V c main_v21 (((cfg0.win 5).blk t).view.emb (ix2 k j')) = V c main_v21 (ix2 k j' : S64x128.Idx)
    have h : ((cfg0.win 5).blk t).view.emb (ix2 k j') = (ix2 k j' : S64x128.Idx) := by
      funext a; apply Fin.ext
      match a with
      | ⟨0, _⟩ => show win0_5.index t (0 : Fin 2) * 64 + 1 * k.val = k.val; omega
      | ⟨1, _⟩ => show win0_5.index t (1 : Fin 2) * 128 + 1 * j'.val = j'.val; omega
    rw [h]
    try rfl
  · intro j'
    show V c main_v24 (((cfg0.win 4).blk t).view.emb (ix2 (0 : Fin 1) j')) = V c main_v24 (ix2 (0 : Fin 1) j' : S1x128.Idx)
    have h : ((cfg0.win 4).blk t).view.emb (ix2 (0 : Fin 1) j') = (ix2 (0 : Fin 1) j' : S1x128.Idx) := by
      funext a; apply Fin.ext
      match a with
      | ⟨0, _⟩ => show win0_4.index t (0 : Fin 2) * 1 + 1 * 0 = 0; omega
      | ⟨1, _⟩ => show win0_4.index t (1 : Fin 2) * 128 + 1 * j'.val = j'.val; omega
    rw [h]
    try rfl
  · intro j'
    show V c main_v22 (((cfg0.win 6).blk t).view.emb (ix2 j' (j 1))) = V c main_v22 (ix2 j' ((((cfg0.win 8).blk t).view.emb j) 1) : S128x64.Idx)
    have h : ((cfg0.win 6).blk t).view.emb (ix2 j' (j 1)) = (ix2 j' ((((cfg0.win 8).blk t).view.emb j) 1) : S128x64.Idx) := by
      funext a; apply Fin.ext
      match a with
      | ⟨0, _⟩ => show win0_6.index t (0 : Fin 2) * 128 + 1 * j'.val = j'.val; omega
      | ⟨1, _⟩ => show win0_6.index t (1 : Fin 2) * 64 + 1 * (j 1).val = win0_8.index t (1 : Fin 2) * 64 + 1 * (j 1).val; omega
    rw [h]
    try rfl

/-- An index of the hidden array is in grid point t's block iff each coordinate is in the block's range on its axis. -/
theorem mem_blk0_7 (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v25_0).slice (win0_7.rect t)).set ↔ _
  rw [View.set_slice_whole, Rect.mem_set_unit]
  exact Iff.rfl

/-- The same for the second result. -/
theorem mem_blk0_8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v25_1).slice (win0_8.rect t)).set ↔ _
  rw [View.set_slice_whole, Rect.mem_set_unit]
  exact Iff.rfl

/-- The twenty blocks of 5000 rows tile the hidden array. -/
theorem cover0_7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto0_7 ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The twenty blocks of 5000 rows tile the second result. -/
theorem cover0_8 (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := idx_onto0_8 ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk0_8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- The hidden array after layer 1's region: layer 1 of the arrays as the region finds them. -/
theorem final0_7 (c : Dev nD) : (dat0 V c).arrAt 7 cfg0.N
    = G0h (V c main_v19) (V c main_arg0) (V c main_v7) (V c main_v20) (V c main_v24) (V c main_v21) :=
  (dat0 V c).arrAt_eq_of_cover 7 _ (fun t _ => flushed0_7_eq V c t) cover0_7

/-- The second result after layer 1's region. -/
theorem final0_8 (c : Dev nD) : (dat0 V c).arrAt 8 cfg0.N
    = G0t (V c main_v19) (V c main_arg0) (V c main_v7) (V c main_v20) (V c main_v24) (V c main_v21) (V c main_v22) :=
  (dat0 V c).arrAt_eq_of_cover 8 _ (fun t _ => flushed0_8_eq V c t) cover0_8

end Cert.KernelIdeal.Blocks

end
-- ==== Proof.KernelSage.lean ====
/-
  The kernel's three whole-array functions are the law's kernel arrangement, at the ideal values.

  When the arrays the regions find are the reference's stage terms of the same arguments (the layer-1 aggregate, the
  neighbour count, the transposed weights, the biases as rows), layer 1's hidden array is the law's hidden layer, its
  second result is the hidden layer pushed through the second layer's neighbour weights, and layer 2 of the aggregate
  of that second result is the law's output in the kernel's arrangement. An accumulating row scatter of a row gather,
  from the zero array, read at (p, o) is the sum over the edges landing on p of the gathered row's entry o.
-/
import proofs.«127070_j7172595384376_2_alg».proof.Proof.KernelBlocks
import proofs.«127070_j7172595384376_2_alg».proof.Proof.SageInst

noncomputable section

namespace Cert.KernelSage

open Cert.ReferenceIdeal Cert.ReferenceIdeal.Read Idealize.ShloMosaic Idealize.ShloMosaic.ValueIdx Idealize.ShloMosaic.RowScatter
open Cert.SageInst Cert.SageLaw

variable (a0 : (⟨S100000x64, .f32⟩ : BufTy).Contents (Elt Ideal)) (a1 : (⟨S2x1280000, .i32⟩ : BufTy).Contents (Elt Ideal))
  (a2 : (⟨S128x64, .f32⟩ : BufTy).Contents (Elt Ideal)) (a3 : (⟨S128, .f32⟩ : BufTy).Contents (Elt Ideal))
  (a4 : (⟨S128x64, .f32⟩ : BufTy).Contents (Elt Ideal)) (a5 : (⟨S64x128, .f32⟩ : BufTy).Contents (Elt Ideal))
  (a6 : (⟨S64, .f32⟩ : BufTy).Contents (Elt Ideal)) (a7 : (⟨S64x128, .f32⟩ : BufTy).Contents (Elt Ideal))

/-- The aggregate of an array X of width 64 over the edges: from zero, the sum over the edges landing on node p of the
    row X reads for the edge. -/
theorem agg64_apply (X : S100000x64.Idx → EReal) (p : Fin 100000) (o : Fin 64) :
    Host.scatterAdd (F := Ideal) (φ := .f32) scatter_S100000x64_S1280000x1_S1280000x64_1_0_0_1 (val_main_v11 (F := Ideal))
        (val_main_v12 (F := Ideal) a1)
        (Host.gather gather_S100000x64_S1280000x1_S1280000x64_1_0_n_n_0_1_164 X (val_main_v9 (F := Ideal) a1)) (ix2 p o)
      = ∑ e ∈ hit a1 p, X (ix2 (cl a1 e) o) := by
  rw [scatterAdd_rows_apply scatter_S100000x64_S1280000x1_S1280000x64_1_0_0_1 rfl rfl rfl rfl]
  rw [Cert.RefRead.v11_apply, Ideal.ofBits_zero_f32, zero_add]
  unfold hit cl
  refine Finset.sum_congr rfl fun e _ => ?_
  exact gather_rows_apply (by decide) gather_S100000x64_S1280000x1_S1280000x64_1_0_n_n_0_1_164 rfl rfl rfl rfl rfl rfl rfl X _ e o

/-- The reference's layer-1 aggregate at (p, k). -/
theorem agg1_apply (p : Fin 100000) (k : Fin 64) :
    val_main_v13 (F := Ideal) a0 a1 (ix2 p k) = ∑ e ∈ hit a1 p, x a0 (cl a1 e) k := by
  rw [Cert.RefRead.v13_eq, Cert.RefRead.v10_eq, agg64_apply]
  rfl

/-- A transposed 128 × 64 weight array read at (k, j) is the array at (j, k). -/
theorem t22 (k : Fin 64) (j : Fin 128) : val_main_v22 (F := Ideal) a2 (ix2 k j) = a2 (ix2 j k) := by
  rw [val_main_v22_apply]
  exact congrArg a2 (funext fun a => Fin.ext (by match a with | ⟨0, _⟩ => rfl | ⟨1, _⟩ => rfl))
theorem t27 (k : Fin 64) (j : Fin 128) : val_main_v27 (F := Ideal) a4 (ix2 k j) = a4 (ix2 j k) := by
  rw [val_main_v27_apply]
  exact congrArg a4 (funext fun a => Fin.ext (by match a with | ⟨0, _⟩ => rfl | ⟨1, _⟩ => rfl))
/-- A transposed 64 × 128 weight array read at (j, o) is the array at (o, j). -/
theorem t49 (j : Fin 128) (o : Fin 64) : val_main_v49 (F := Ideal) a5 (ix2 j o) = a5 (ix2 o j) := by
  rw [val_main_v49_apply]
  exact congrArg a5 (funext fun a => Fin.ext (by match a with | ⟨0, _⟩ => rfl | ⟨1, _⟩ => rfl))
theorem t54 (j : Fin 128) (o : Fin 64) : val_main_v54 (F := Ideal) a7 (ix2 j o) = a7 (ix2 o j) := by
  rw [val_main_v54_apply]
  exact congrArg a7 (funext fun a => Fin.ext (by match a with | ⟨0, _⟩ => rfl | ⟨1, _⟩ => rfl))

/-- Layer 1's hidden array, of the reference's stage terms, is the law's hidden layer (kernel arrangement). -/
theorem hid_kernel (B1 : Cert.KernelIdeal.S1x128.Idx → EReal) (hB : ∀ j : Fin 128, B1 (ix2 (0 : Fin 1) j) = a3 (ix1 j))
    (p : Fin 100000) (j : Fin 128) :
    Cert.KernelIdeal.Blocks.G0h (val_main_v13 (F := Ideal) a0 a1) a0 (val_main_v17 (F := Ideal) a1)
        (val_main_v22 (F := Ideal) a2) B1 (val_main_v27 (F := Ideal) a4) (ix2 p j)
      = hidK (hit a1) (cl a1) (Dn a1) (x a0) (Wl1 a2) (b1 a3) (Wr1 a4) p j := by
  unfold Cert.KernelIdeal.Blocks.G0h hidK mean1
  simp only [agg1_apply, t22, t27, Ideal.ofBits_zero_f32]
  rw [hB j]
  rfl

/-- Layer 1's second result, of the reference's stage terms, is the hidden layer through the second neighbour weights. -/
theorem pre2_kernel (B1 : Cert.KernelIdeal.S1x128.Idx → EReal) (hB : ∀ j : Fin 128, B1 (ix2 (0 : Fin 1) j) = a3 (ix1 j))
    (p : Fin 100000) (o : Fin 64) :
    Cert.KernelIdeal.Blocks.G0t (val_main_v13 (F := Ideal) a0 a1) a0 (val_main_v17 (F := Ideal) a1)
        (val_main_v22 (F := Ideal) a2) B1 (val_main_v27 (F := Ideal) a4) (val_main_v49 (F := Ideal) a5) (ix2 p o)
      = pre2 (hit a1) (cl a1) (Dn a1) (x a0) (Wl1 a2) (b1 a3) (Wr1 a4) (Wl2 a5) p o := by
  unfold Cert.KernelIdeal.Blocks.G0t pre2
  refine Finset.sum_congr rfl fun j _ => ?_
  rw [t49]
  exact congrArg (· * a5 (ix2 o j)) (hid_kernel a0 a1 a2 a3 a4 B1 hB p j)

/-- Layer 2 of the aggregate of layer 1's second result is the law's output in the kernel's arrangement. -/
theorem out_kernel (B1 : Cert.KernelIdeal.S1x128.Idx → EReal) (hB : ∀ j : Fin 128, B1 (ix2 (0 : Fin 1) j) = a3 (ix1 j))
    (B2 : Cert.KernelIdeal.S1x64.Idx → EReal) (hB2 : ∀ o : Fin 64, B2 (ix2 (0 : Fin 1) o) = a6 (ix1 o))
    (p : Fin 100000) (o : Fin 64) :
    Cert.KernelIdeal.Blocks.G1
        (Host.scatterAdd (F := Ideal) (φ := .f32) scatter_S100000x64_S1280000x1_S1280000x64_1_0_0_1 (val_main_v11 (F := Ideal))
          (val_main_v12 (F := Ideal) a1)
          (Host.gather gather_S100000x64_S1280000x1_S1280000x64_1_0_n_n_0_1_164
            (Cert.KernelIdeal.Blocks.G0t (val_main_v13 (F := Ideal) a0 a1) a0 (val_main_v17 (F := Ideal) a1)
              (val_main_v22 (F := Ideal) a2) B1 (val_main_v27 (F := Ideal) a4) (val_main_v49 (F := Ideal) a5))
            (val_main_v9 (F := Ideal) a1)))
        (Cert.KernelIdeal.Blocks.G0h (val_main_v13 (F := Ideal) a0 a1) a0 (val_main_v17 (F := Ideal) a1)
          (val_main_v22 (F := Ideal) a2) B1 (val_main_v27 (F := Ideal) a4))
        (val_main_v17 (F := Ideal) a1) (val_main_v54 (F := Ideal) a7) B2 (ix2 p o)
      = outK (hit a1) (cl a1) (Dn a1) (x a0) (Wl1 a2) (b1 a3) (Wr1 a4) (Wl2 a5) (b2 a6) (Wr2 a7) p o := by
  unfold Cert.KernelIdeal.Blocks.G1 outK
  show (Ideal.div (Host.scatterAdd (F := Ideal) (φ := .f32) scatter_S100000x64_S1280000x1_S1280000x64_1_0_0_1 _ _ _ (ix2 p o)) _ + _) + B2 (ix2 (0 : Fin 1) o) = _
  rw [agg64_apply, hB2 o]
  simp only [pre2_kernel a0 a1 a2 a3 a4 a5 B1 hB, hid_kernel a0 a1 a2 a3 a4 B1 hB, t54]
  rfl

end Cert.KernelSage

end
-- ==== Proof.KernelValue.lean ====
/-
  The idealized kernel's result array is the law's output in the kernel's arrangement, at the ideal values.

  The result buffer at the last boundary is what layer 2's region leaves: layer 2 of the arrays that region finds. Those
  are the aggregate the second host stretch computes from layer 1's second result, the hidden array layer 1's region
  leaves, the neighbour count, the transposed root weights and the bias as a row. The arrays layer 1's region finds are
  the first host stretch's values, which are the reference's stage terms of the same arguments. Read at node p and
  column o, the whole composition is the law's kernel arrangement.
-/
import proofs.«127070_j7172595384376_2_alg».proof.Proof.KernelHost
import proofs.«127070_j7172595384376_2_alg».proof.Proof.KernelSage

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The hidden array after layer 1's region is layer 1 of the reference's stage terms, with the first bias as the row
    the first host stretch makes of it. -/
theorem hidden_eq : W2 m ρ c (Proc.devRef .tc main_v25_0)
    = Blocks.G0h (Cert.ReferenceIdeal.Read.val_main_v13 (F := Ideal) (m ((c : Thread nD τ).loc main_arg0)) (m ((c : Thread nD τ).loc main_arg1)))
        (m ((c : Thread nD τ).loc main_arg0))
        (Cert.ReferenceIdeal.Read.val_main_v17 (F := Ideal) (m ((c : Thread nD τ).loc main_arg1)))
        (Cert.ReferenceIdeal.Read.val_main_v22 (F := Ideal) (m ((c : Thread nD τ).loc main_arg2)))
        (W1 m ρ c (Proc.devRef .tc main_v24))
        (Cert.ReferenceIdeal.Read.val_main_v27 (F := Ideal) (m ((c : Thread nD τ).loc main_arg4))) := by
  rw [show W2 m ρ c (Proc.devRef .tc main_v25_0) = (dat0 (V1 m ρ) c).arrAt 7 cfg0.N from W2_arr m ρ c 7,
    Blocks.final0_7 (V1 m ρ) c]
  show Blocks.G0h (W1 m ρ c (Proc.devRef .tc main_v19)) (W1 m ρ c (Proc.devRef .tc main_arg0)) (W1 m ρ c (Proc.devRef .tc main_v7))
    (W1 m ρ c (Proc.devRef .tc main_v20)) (W1 m ρ c (Proc.devRef .tc main_v24)) (W1 m ρ c (Proc.devRef .tc main_v21)) = _
  rw [HostValue.W1_v19, HostValue.W1_arg0, HostValue.W1_v7, HostValue.W1_v20, HostValue.W1_v21]

/-- Layer 1's second result after its region. -/
theorem second_eq : W2 m ρ c (Proc.devRef .tc main_v25_1)
    = Blocks.G0t (Cert.ReferenceIdeal.Read.val_main_v13 (F := Ideal) (m ((c : Thread nD τ).loc main_arg0)) (m ((c : Thread nD τ).loc main_arg1)))
        (m ((c : Thread nD τ).loc main_arg0))
        (Cert.ReferenceIdeal.Read.val_main_v17 (F := Ideal) (m ((c : Thread nD τ).loc main_arg1)))
        (Cert.ReferenceIdeal.Read.val_main_v22 (F := Ideal) (m ((c : Thread nD τ).loc main_arg2)))
        (W1 m ρ c (Proc.devRef .tc main_v24))
        (Cert.ReferenceIdeal.Read.val_main_v27 (F := Ideal) (m ((c : Thread nD τ).loc main_arg4)))
        (Cert.ReferenceIdeal.Read.val_main_v49 (F := Ideal) (m ((c : Thread nD τ).loc main_arg5))) := by
  rw [show W2 m ρ c (Proc.devRef .tc main_v25_1) = (dat0 (V1 m ρ) c).arrAt 8 cfg0.N from W2_arr m ρ c 8,
    Blocks.final0_8 (V1 m ρ) c]
  show Blocks.G0t (W1 m ρ c (Proc.devRef .tc main_v19)) (W1 m ρ c (Proc.devRef .tc main_arg0)) (W1 m ρ c (Proc.devRef .tc main_v7))
    (W1 m ρ c (Proc.devRef .tc main_v20)) (W1 m ρ c (Proc.devRef .tc main_v24)) (W1 m ρ c (Proc.devRef .tc main_v21))
    (W1 m ρ c (Proc.devRef .tc main_v22)) = _
  rw [HostValue.W1_v19, HostValue.W1_arg0, HostValue.W1_v7, HostValue.W1_v20, HostValue.W1_v21, HostValue.W1_v22]

/-- The result array at node p and column o is the law's output in the kernel's arrangement. -/
theorem result_apply (p : Fin 100000) (o : Fin 64) :
    W4 m ρ c (Proc.devRef .tc main_v38) (ix2 p o)
      = Cert.SageLaw.outK (Cert.SageInst.hit (m ((c : Thread nD τ).loc main_arg1))) (Cert.SageInst.cl (m ((c : Thread nD τ).loc main_arg1)))
          (Cert.SageInst.Dn (m ((c : Thread nD τ).loc main_arg1))) (Cert.SageInst.x (m ((c : Thread nD τ).loc main_arg0)))
          (Cert.SageInst.Wl1 (m ((c : Thread nD τ).loc main_arg2))) (Cert.SageInst.b1 (m ((c : Thread nD τ).loc main_arg3)))
          (Cert.SageInst.Wr1 (m ((c : Thread nD τ).loc main_arg4))) (Cert.SageInst.Wl2 (m ((c : Thread nD τ).loc main_arg5)))
          (Cert.SageInst.b2 (m ((c : Thread nD τ).loc main_arg6))) (Cert.SageInst.Wr2 (m ((c : Thread nD τ).loc main_arg7))) p o := by
  rw [show W4 m ρ c (Proc.devRef .tc main_v38) = (dat1 (V3 m ρ) c).arrAt 5 cfg1.N from W4_arr m ρ c 5,
    Blocks.final1 (V3 m ρ) c]
  show Blocks.G1 (W3 m ρ c (Proc.devRef .tc main_v36)) (W3 m ρ c (Proc.devRef .tc main_v25_0)) (W3 m ρ c (Proc.devRef .tc main_v7))
    (W3 m ρ c (Proc.devRef .tc main_v23)) (W3 m ρ c (Proc.devRef .tc main_v37)) (ix2 p o) = _
  rw [HostValue.W3_v36, HostValue.W3_v25_0, HostValue.W3_v7, HostValue.W3_v23, hidden_eq, second_eq]
  exact Cert.KernelSage.out_kernel (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (W1 m ρ c (Proc.devRef .tc main_v24)) (HostValue.W1_v24 m ρ c) (W3 m ρ c (Proc.devRef .tc main_v37)) (HostValue.W3_v37 m ρ c) p o

end Cert.KernelIdeal.ResultValue

end
-- ==== Proof.lean ====
/-
  A two-layer mean-aggregation graph network (100000 nodes of 64 features, 1280000 directed edges, hidden width 128,
  output width 64), computed two ways, agrees on the extended reals wherever the float inputs are finite.

  Both programs gather each edge's source row (a negative source entry wrapped once, the row clamped into range), add
  it into the edge's destination row (an out-of-range destination is dropped), divide by the neighbour count raised to
  at least one, and apply  mean · W_l + b + x · W_r,  a positive part after the first layer. They differ in two ways.
  The first layer adds its three terms in a different order — addition on the extended reals is commutative and
  associative, so nothing is needed. The second layer's kernel multiplies the hidden rows by W_l2 BEFORE aggregating
  them (64 columns move instead of 128), where the reference aggregates and then multiplies: the mean is linear, and
  the two agree because every hidden entry and every entry of W_l2 is a real number and the divisor is a nonzero real —
  the hidden entries are finite sums, products, quotients and positive parts of finite inputs. So the precondition is
  used exactly there; nothing is assumed of the second layer's bias or root weights. A change of float format is the
  identity on the extended reals, a matrix product on the matrix unit and on the host are the same finite sum, and the
  tiling of the node axis into twenty blocks of 5000 rows disappears once the blocks are read back as whole arrays.

  The word-level kernel and its idealization differ by no rewrite, so the idealization conjunct is trivial; the three
  frames are the generated ones (the reference's is its generated run with the result dropped).
-/
import proofs.«127070_j7172595384376_2_alg».proof.Defs
import proofs.«127070_j7172595384376_2_alg».proof.Proof.Gen.Kernel
import proofs.«127070_j7172595384376_2_alg».proof.Proof.Gen.Kernel.Skeleton
import proofs.«127070_j7172595384376_2_alg».proof.Proof.Gen.Kernel.Launch
import proofs.«127070_j7172595384376_2_alg».proof.Proof.Gen.Kernel.Points
import proofs.«127070_j7172595384376_2_alg».proof.Proof.Gen.Kernel.Frame
import proofs.«127070_j7172595384376_2_alg».proof.Proof.Gen.KernelIdeal
import proofs.«127070_j7172595384376_2_alg».proof.Proof.Gen.KernelIdeal.Skeleton
import proofs.«127070_j7172595384376_2_alg».proof.Proof.Gen.KernelIdeal.Launch
import proofs.«127070_j7172595384376_2_alg».proof.Proof.Gen.KernelIdeal.Points
import proofs.«127070_j7172595384376_2_alg».proof.Proof.Gen.KernelIdeal.Frame
import proofs.«127070_j7172595384376_2_alg».proof.Proof.Gen.ReferenceIdeal
import proofs.«127070_j7172595384376_2_alg».proof.Proof.Gen.ReferenceIdeal.Run
import proofs.«127070_j7172595384376_2_alg».proof.Proof.Gen.ReferenceIdeal.Read
import proofs.«127070_j7172595384376_2_alg».proof.Proof.Gen.Pre_finite_inputs
import proofs.«127070_j7172595384376_2_alg».proof.Proof.FiniteInputs
import proofs.«127070_j7172595384376_2_alg».proof.Proof.RefValue
import proofs.«127070_j7172595384376_2_alg».proof.Proof.KernelRun
import proofs.«127070_j7172595384376_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end without a fault and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, finite where they are floats, both idealized programs run to the end
    and their results are equal element by element: the kernel's is the law's kernel arrangement of the network's
    data, the reference's the law's reference arrangement, and the law joins them where the inputs are finite. -/
theorem algebraic : Cert.algebraic_KernelIdeal_ReferenceIdeal := by
  intro m ρ m' ρ' hpre hagree
  refine ⟨fun c => Cert.KernelIdeal.Gen.W4 m ρ c (Proc.devRef .tc Cert.KernelIdeal.main_v38),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  obtain ⟨h0, h2, h3, h4, h5, h6, h7⟩ := Cert.FiniteInputs.finite_of_pre _ _ _ _ _ _ _ _ (hpre c)
  funext i
  obtain ⟨p, o, rfl⟩ : ∃ (p : Fin 100000) (o : Fin 64), i = ix2 p o := ⟨i 0, i 1, eq_ix2 i⟩
  rw [Cert.RefValue.ref_apply]
  exact ((Cert.SageLaw.outK_eq_outR _ _ _ _ _ _ _ _ _ _ (fun i k => h0 (ix2 i k)) (fun j k => h2 (ix2 j k))
    (fun j => h3 (ix1 j)) (fun j k => h4 (ix2 j k)) (Cert.SageInst.Dn_real _) (fun o j => h5 (ix2 o j)) p o).symm).trans
    (Cert.KernelIdeal.ResultValue.result_apply m ρ c p o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
